-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256x7x7 : Shape := ⟨4, ![4096, 256, 7, 7]⟩
abbrev S100 : Shape := ⟨1, ![100]⟩
abbrev S4096x2 : Shape := ⟨2, ![4096, 2]⟩
abbrev S80x600 : Shape := ⟨2, ![80, 600]⟩
abbrev S12544x1024 : Shape := ⟨2, ![12544, 1024]⟩
abbrev S1024 : Shape := ⟨1, ![1024]⟩
abbrev S1024x1024 : Shape := ⟨2, ![1024, 1024]⟩
abbrev S1024x600 : Shape := ⟨2, ![1024, 600]⟩
abbrev S600 : Shape := ⟨1, ![600]⟩
abbrev S_ : Shape := ⟨0, ![]⟩

class Facts : Prop where
  bcast_S_S4096x256x7x7 : S_.BroadcastsInDim S4096x256x7x7 (![] : Fin 0 → Fin S4096x256x7x7.rank)
  reducesTo_S4096x256x7x7_S_d0_1_2_3 : S4096x256x7x7.ReducesTo [0, 1, 2, 3] S_
  h_S_ : 0 < S_.numel
  bcast_S_S100 : S_.BroadcastsInDim S100 (![] : Fin 0 → Fin S100.rank)
  reducesTo_S100_S_d0 : S100.ReducesTo [0] S_
  bcast_S_S80x600 : S_.BroadcastsInDim S80x600 (![] : Fin 0 → Fin S80x600.rank)
  reducesTo_S80x600_S_d0_1 : S80x600.ReducesTo [0, 1] S_
  bcast_S_S12544x1024 : S_.BroadcastsInDim S12544x1024 (![] : Fin 0 → Fin S12544x1024.rank)
  reducesTo_S12544x1024_S_d0_1 : S12544x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x600 : S_.BroadcastsInDim S1024x600 (![] : Fin 0 → Fin S1024x600.rank)
  reducesTo_S1024x600_S_d0_1 : S1024x600.ReducesTo [0, 1] S_
  bcast_S_S600 : S_.BroadcastsInDim S600 (![] : Fin 0 → Fin S600.rank)
  reducesTo_S600_S_d0 : S600.ReducesTo [0] S_

variable [Facts]

def fn_part2 {F : FTy → Type} [FloatOps F] (main_arg9 : FVec F S1024x600 .f32) (main_arg10 : FVec F S600 .f32) (main_v33 : IVec S_ 1) : IVec S_ 1 :=
  let main_v34 : FVec F S1024x600 .f32 := Host.absf main_arg9
  let main_cst_12 : FVec F S_ .f32 := constant S_ .f32 0x7F800000#32
  let main_v35 : FVec F S1024x600 .f32 := broadcastInDim S1024x600 ![] bcast_S_S1024x600 main_cst_12
  let main_v36 : IVec S1024x600 1 := cmpf .olt main_v34 main_v35
  let main_c_13 : IVec S_ 1 := constantI S_ 1 1#1
  let main_v37 : IVec S_ 1 := (fun x v => Host.reduce IntOp.andi x v reducesTo_S1024x600_S_d0_1 h_S_) main_v36 main_c_13
  let main_v38 : IVec S_ 1 := andi main_v33 main_v37
  let main_v39 : FVec F S600 .f32 := Host.absf main_arg10
  let main_cst_14 : FVec F S_ .f32 := constant S_ .f32 0x7F800000#32
  let main_v40 : FVec F S600 .f32 := broadcastInDim S600 ![] bcast_S_S600 main_cst_14
  let main_v41 : IVec S600 1 := cmpf .olt main_v39 main_v40
  let main_c_15 : IVec S_ 1 := constantI S_ 1 1#1
  let main_v42 : IVec S_ 1 := (fun x v => Host.reduce IntOp.andi x v reducesTo_S600_S_d0 h_S_) main_v41 main_c_15
  let main_v43 : IVec S_ 1 := andi main_v38 main_v42
  main_v43

def fn_part1 {F : FTy → Type} [FloatOps F] (main_arg6 : FVec F S1024 .f32) (main_arg7 : FVec F S1024x1024 .f32) (main_arg8 : FVec F S1024 .f32) (main_arg9 : FVec F S1024x600 .f32) (main_arg10 : FVec F S600 .f32) (main_v13 : IVec S_ 1) (main_v16 : IVec S12544x1024 1) : IVec S_ 1 :=
  let main_c_5 : IVec S_ 1 := constantI S_ 1 1#1
  let main_v17 : IVec S_ 1 := (fun x v => Host.reduce IntOp.andi x v reducesTo_S12544x1024_S_d0_1 h_S_) main_v16 main_c_5
  let main_v18 : IVec S_ 1 := andi main_v13 main_v17
  let main_v19 : FVec F S1024 .f32 := Host.absf main_arg6
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg7
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg8
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg9 main_arg10 main_v33

def fn {F : FTy → Type} [FloatOps F] (main_arg0 : FVec F S4096x256x7x7 .f32) (main_arg1 : FVec F S100 .f32) (main_arg2 : IVec S100 32) (main_arg3 : IVec S4096x2 32) (main_arg4 : FVec F S80x600 .f32) (main_arg5 : FVec F S12544x1024 .f32) (main_arg6 : FVec F S1024 .f32) (main_arg7 : FVec F S1024x1024 .f32) (main_arg8 : FVec F S1024 .f32) (main_arg9 : FVec F S1024x600 .f32) (main_arg10 : FVec F S600 .f32) : IVec S_ 1 :=
  let main_v0 : FVec F S4096x256x7x7 .f32 := Host.absf main_arg0
  let main_cst : FVec F S_ .f32 := constant S_ .f32 0x7F800000#32
  let main_v1 : FVec F S4096x256x7x7 .f32 := broadcastInDim S4096x256x7x7 ![] bcast_S_S4096x256x7x7 main_cst
  let main_v2 : IVec S4096x256x7x7 1 := cmpf .olt main_v0 main_v1
  let main_c : IVec S_ 1 := constantI S_ 1 1#1
  let main_v3 : IVec S_ 1 := (fun x v => Host.reduce IntOp.andi x v reducesTo_S4096x256x7x7_S_d0_1_2_3 h_S_) main_v2 main_c
  let main_v4 : FVec F S100 .f32 := Host.absf main_arg1
  let main_cst_0 : FVec F S_ .f32 := constant S_ .f32 0x7F800000#32
  let main_v5 : FVec F S100 .f32 := broadcastInDim S100 ![] bcast_S_S100 main_cst_0
  let main_v6 : IVec S100 1 := cmpf .olt main_v4 main_v5
  let main_c_1 : IVec S_ 1 := constantI S_ 1 1#1
  let main_v7 : IVec S_ 1 := (fun x v => Host.reduce IntOp.andi x v reducesTo_S100_S_d0 h_S_) main_v6 main_c_1
  let main_v8 : IVec S_ 1 := andi main_v3 main_v7
  let main_v9 : FVec F S80x600 .f32 := Host.absf main_arg4
  let main_cst_2 : FVec F S_ .f32 := constant S_ .f32 0x7F800000#32
  let main_v10 : FVec F S80x600 .f32 := broadcastInDim S80x600 ![] bcast_S_S80x600 main_cst_2
  let main_v11 : IVec S80x600 1 := cmpf .olt main_v9 main_v10
  let main_c_3 : IVec S_ 1 := constantI S_ 1 1#1
  let main_v12 : IVec S_ 1 := (fun x v => Host.reduce IntOp.andi x v reducesTo_S80x600_S_d0_1 h_S_) main_v11 main_c_3
  let main_v13 : IVec S_ 1 := andi main_v8 main_v12
  let main_v14 : FVec F S12544x1024 .f32 := Host.absf main_arg5
  let main_cst_4 : FVec F S_ .f32 := constant S_ .f32 0x7F800000#32
  let main_v15 : FVec F S12544x1024 .f32 := broadcastInDim S12544x1024 ![] bcast_S_S12544x1024 main_cst_4
  let main_v16 : IVec S12544x1024 1 := cmpf .olt main_v14 main_v15
  fn_part1 (F := F) main_arg6 main_arg7 main_arg8 main_arg9 main_arg10 main_v13 main_v16
-- ==== Kernel.lean ====
abbrev S4096x256x7x7 : Shape := ⟨4, ![4096, 256, 7, 7]⟩
abbrev S100 : Shape := ⟨1, ![100]⟩
abbrev S4096x2 : Shape := ⟨2, ![4096, 2]⟩
abbrev S80x600 : Shape := ⟨2, ![80, 600]⟩
abbrev S12544x1024 : Shape := ⟨2, ![12544, 1024]⟩
abbrev S1024 : Shape := ⟨1, ![1024]⟩
abbrev S1024x1024 : Shape := ⟨2, ![1024, 1024]⟩
abbrev S1024x600 : Shape := ⟨2, ![1024, 600]⟩
abbrev S600 : Shape := ⟨1, ![600]⟩
abbrev S4096x1 : Shape := ⟨2, ![4096, 1]⟩
abbrev S4096 : Shape := ⟨1, ![4096]⟩
abbrev S_ : Shape := ⟨0, ![]⟩
abbrev S4096x600 : Shape := ⟨2, ![4096, 600]⟩
abbrev S4096x12544 : Shape := ⟨2, ![4096, 12544]⟩
abbrev S256x600 : Shape := ⟨2, ![256, 600]⟩
abbrev S2x256x1792 : Shape := ⟨3, ![2, 256, 1792]⟩
abbrev S2 : Shape := ⟨1, ![2]⟩
abbrev S256x1024 : Shape := ⟨2, ![256, 1024]⟩
abbrev S1 : Shape := ⟨1, ![1]⟩
abbrev S1x256x1792 : Shape := ⟨3, ![1, 256, 1792]⟩
abbrev S256x1792 : Shape := ⟨2, ![256, 1792]⟩
abbrev S1792x1024 : Shape := ⟨2, ![1792, 1024]⟩
abbrev S1x1024 : Shape := ⟨2, ![1, 1024]⟩
abbrev S1x600 : Shape := ⟨2, ![1, 600]⟩

abbrev nBuf : Space → Nat
  | .hbm => 60
  | .vmem => 12
  | .smem => 0
  | _ => 0

abbrev bufTy : (tb : Table) → Fin (tcTables nBuf tb) → BufTy
  | .hbm, ⟨0, _⟩ => ⟨S4096x256x7x7, .f32⟩
  | .hbm, ⟨1, _⟩ => ⟨S100, .f32⟩
  | .hbm, ⟨2, _⟩ => ⟨S100, .i32⟩
  | .hbm, ⟨3, _⟩ => ⟨S4096x2, .i32⟩
  | .hbm, ⟨4, _⟩ => ⟨S80x600, .f32⟩
  | .hbm, ⟨5, _⟩ => ⟨S12544x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x600, .f32⟩
  | .hbm, ⟨10, _⟩ => ⟨S600, .f32⟩
  | .hbm, ⟨11, _⟩ => ⟨S4096x1, .i32⟩
  | .hbm, ⟨12, _⟩ => ⟨S4096, .i32⟩
  | .hbm, ⟨13, _⟩ => ⟨S4096x1, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S4096x1, .i32⟩
  | .hbm, ⟨23, _⟩ => ⟨S4096, .f32⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S4096x1, .i32⟩
  | .hbm, ⟨32, _⟩ => ⟨S4096, .f32⟩
  | .hbm, ⟨33, _⟩ => ⟨S4096, .f32⟩
  | .hbm, ⟨34, _⟩ => ⟨S4096x1, .f32⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S4096, .i32⟩
  | .hbm, ⟨42, _⟩ => ⟨S4096x1, .i32⟩
  | .hbm, ⟨43, _⟩ => ⟨S4096, .i32⟩
  | .hbm, ⟨44, _⟩ => ⟨S_, .i32⟩
  | .hbm, ⟨45, _⟩ => ⟨S4096, .i32⟩
  | .hbm, ⟨46, _⟩ => ⟨S4096, .i1⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S4096, .i32⟩
  | .hbm, ⟨51, _⟩ => ⟨S4096x1, .i32⟩
  | .hbm, ⟨52, _⟩ => ⟨S4096x600, .f32⟩
  | .hbm, ⟨53, _⟩ => ⟨S4096x600, .f32⟩
  | .hbm, ⟨54, _⟩ => ⟨S4096x600, .f32⟩
  | .hbm, ⟨55, _⟩ => ⟨S4096x12544, .f32⟩
  | .hbm, ⟨56, _⟩ => ⟨S12544x1024, .bf16⟩
  | .hbm, ⟨57, _⟩ => ⟨S1024x1024, .bf16⟩
  | .hbm, ⟨58, _⟩ => ⟨S1024x600, .bf16⟩
  | .hbm, ⟨59, _⟩ => ⟨S4096x600, .f32⟩
  | .local _ .vmem, ⟨0, _⟩ => ⟨S256x600, .f32⟩
  | .local _ .vmem, ⟨1, _⟩ => ⟨S256x600, .f32⟩
  | .local _ .vmem, ⟨2, _⟩ => ⟨S12544x1024, .bf16⟩
  | .local _ .vmem, ⟨3, _⟩ => ⟨S1024, .f32⟩
  | .local _ .vmem, ⟨4, _⟩ => ⟨S1024x1024, .bf16⟩
  | .local _ .vmem, ⟨5, _⟩ => ⟨S1024, .f32⟩
  | .local _ .vmem, ⟨6, _⟩ => ⟨S1024x600, .bf16⟩
  | .local _ .vmem, ⟨7, _⟩ => ⟨S600, .f32⟩
  | .local _ .vmem, ⟨8, _⟩ => ⟨S256x600, .f32⟩
  | .local _ .vmem, ⟨9, _⟩ => ⟨S256x600, .f32⟩
  | .local _ .vmem, ⟨10, _⟩ => ⟨S2x256x1792, .f32⟩
  | .local _ .vmem, ⟨11, _⟩ => ⟨S256x1024, .f32⟩
  | _, _ => ⟨S4096x256x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let c0_i32_3 : BitVec 32 := 0#32
  ![v1.toNat, 0]
def k0_off2 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let c1792_i32 : BitVec 32 := 1792#32
  ![v1.toNat, 1792]
def k0_off3 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let c3584_i32 : BitVec 32 := 3584#32
  ![v1.toNat, 3584]
def k0_off4 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let c5376_i32 : BitVec 32 := 5376#32
  ![v1.toNat, 5376]
def k0_off5 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let c7168_i32 : BitVec 32 := 7168#32
  ![v1.toNat, 7168]
def k0_off6 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let c8960_i32 : BitVec 32 := 8960#32
  ![v1.toNat, 8960]
def k0_off7 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let c10752_i32 : BitVec 32 := 10752#32
  ![v1.toNat, 10752]
def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12544x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x600 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S600 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x600 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S4096x2_S4096x1_0_0 : S4096x2.Slices ![0, 0] S4096x1
  shapeCasts_S4096x1_S4096 : S4096x1.ShapeCasts S4096
  slices_S4096x2_S4096x1_0_1 : S4096x2.Slices ![0, 1] S4096x1
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x600_0_1 : S4096x1.BroadcastsInDim S4096x600 (![0, 1] : Fin 2 → Fin S4096x600.rank)
  shapeCasts_S4096x256x7x7_S4096x12544 : S4096x256x7x7.ShapeCasts S4096x12544
  bitsLt_bf16_f32 : FTy.bits .bf16 < FTy.bits .f32
  inb_S2_S1_0 : ∀ a, (![0] : Fin 1 → Nat) a + S1.size a ≤ S2.size a
  squeezes_S1_S_ : S1.Squeezes S_
  inb_S2x256x1792_S1x256x1792_0_0_0 : ∀ a, (![0, 0, 0] : Fin 3 → Nat) a + S1x256x1792.size a ≤ S2x256x1792.size a
  squeezes_S1x256x1792_S256x1792 : S1x256x1792.Squeezes S256x1792
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S2_S1_1 : ∀ a, (![1] : Fin 1 → Nat) a + S1.size a ≤ S2.size a
  inb_S2x256x1792_S1x256x1792_1_0_0 : ∀ a, (![1, 0, 0] : Fin 3 → Nat) a + S1x256x1792.size a ≤ S2x256x1792.size a
  h_S1x256x1792 : 0 < S1x256x1792.numel
  shapeCasts_S1x256x1792_S256x1792 : S1x256x1792.ShapeCasts S256x1792
  inb_S12544x1024_S1792x1024_0_0 : ∀ a, (![0, 0] : Fin 2 → Nat) a + S1792x1024.size a ≤ S12544x1024.size a
  h_S1792x1024 : 0 < S1792x1024.numel
  shapeCasts_S1792x1024_S1792x1024 : S1792x1024.ShapeCasts S1792x1024
  inb_S12544x1024_S1792x1024_1792_0 : ∀ a, (![1792, 0] : Fin 2 → Nat) a + S1792x1024.size a ≤ S12544x1024.size a
  inb_S12544x1024_S1792x1024_3584_0 : ∀ a, (![3584, 0] : Fin 2 → Nat) a + S1792x1024.size a ≤ S12544x1024.size a
  inb_S12544x1024_S1792x1024_5376_0 : ∀ a, (![5376, 0] : Fin 2 → Nat) a + S1792x1024.size a ≤ S12544x1024.size a
  inb_S12544x1024_S1792x1024_7168_0 : ∀ a, (![7168, 0] : Fin 2 → Nat) a + S1792x1024.size a ≤ S12544x1024.size a
  inb_S12544x1024_S1792x1024_8960_0 : ∀ a, (![8960, 0] : Fin 2 → Nat) a + S1792x1024.size a ≤ S12544x1024.size a
  inb_S12544x1024_S1792x1024_10752_0 : ∀ a, (![10752, 0] : Fin 2 → Nat) a + S1792x1024.size a ≤ S12544x1024.size a
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x600_S1024x600_0_0 : ∀ a, (![0, 0] : Fin 2 → Nat) a + S1024x600.size a ≤ S1024x600.size a
  h_S1024x600 : 0 < S1024x600.numel
  shapeCasts_S1024x600_S1024x600 : S1024x600.ShapeCasts S1024x600
  inb_S600_S600_0 : ∀ a, (![0] : Fin 1 → Nat) a + S600.size a ≤ S600.size a
  h_S600 : 0 < S600.numel
  shapeCasts_S600_S1x600 : S600.ShapeCasts S1x600
  broadcasts_S1x600_S256x600 : S1x600.Broadcasts S256x600
  inb_S256x600_S256x600_0_0 : ∀ a, (![0, 0] : Fin 2 → Nat) a + S256x600.size a ≤ S256x600.size a
  h_S256x600 : 0 < S256x600.numel
  shapeCasts_S256x600_S256x600 : S256x600.ShapeCasts S256x600
  gather_S100_S4096x1_S4096_n_0_n_n_0_1_1_wf : GatherDims.WF S100 S4096x1 S4096 [] [0] [] [0] [] 1 ![1]
  gather_S80x600_S4096x1_S4096x600_1_0_n_n_0_1_1600_wf : GatherDims.WF S80x600 S4096x1 S4096x600 [1] [0] [] [0] [] 1 ![1, 600]
  dot_S256x1792_S1792x1024_S256x1024_1_0_0_1_n_n_wf : DotDims.WF S256x1792 S1792x1024 S256x1024 [1] [0] [0] [1] [] []
  dot_S256x1024_S1024x1024_S256x1024_1_0_0_1_n_n_wf : DotDims.WF S256x1024 S1024x1024 S256x1024 [1] [0] [0] [1] [] []
  dot_S256x1024_S1024x600_S256x600_1_0_0_1_n_n_wf : DotDims.WF S256x1024 S1024x600 S256x600 [1] [0] [0] [1] [] []
  hcc0_scratch1 : 10 + S2.numel ≤ 12
  hrank0 : 0 < grid0.rank
  k0_mult1_dvd : ∀ i : grid0.Coords, 256 ∣ (k0_mult1 i).toNat
  k0_off1_inb : ∀ i : grid0.Coords, ∀ a, (k0_off1 i) a + S256x1792.size a ≤ S4096x12544.size a
  k0_off2_inb : ∀ i : grid0.Coords, ∀ a, (k0_off2 i) a + S256x1792.size a ≤ S4096x12544.size a
  k0_off3_inb : ∀ i : grid0.Coords, ∀ a, (k0_off3 i) a + S256x1792.size a ≤ S4096x12544.size a
  k0_off4_inb : ∀ i : grid0.Coords, ∀ a, (k0_off4 i) a + S256x1792.size a ≤ S4096x12544.size a
  k0_off5_inb : ∀ i : grid0.Coords, ∀ a, (k0_off5 i) a + S256x1792.size a ≤ S4096x12544.size a
  k0_off6_inb : ∀ i : grid0.Coords, ∀ a, (k0_off6 i) a + S256x1792.size a ≤ S4096x12544.size a
  k0_off7_inb : ∀ i : grid0.Coords, ∀ a, (k0_off7 i) a + S256x1792.size a ≤ S4096x12544.size a
  hstage0_0 : ∀ j, (stage0_0 j).IsWhole
  nbuf0_0 : grid0.bufCount reads0_0 false = 2
  hreads0_0 : ∀ i i' : grid0.Coords, (∀ a, reads0_0 a = true → i a = i' a) → cc0_transform_1 i = cc0_transform_1 i'
  hinb0_0 : ∀ (i : grid0.Coords) a, (cc0_transform_1 i a + 1) * S256x600.size a ≤ S4096x600.size a
  hwx0_0 : ∀ i : grid0.Coords, EltTy.bits .f32 = 32 ∨ (Rect.block (s := S4096x600) S256x600.size (cc0_transform_1 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_2 i = cc0_transform_2 i'
  hinb0_1 : ∀ (i : grid0.Coords) a, (cc0_transform_2 i a + 1) * S12544x1024.size a ≤ S12544x1024.size a
  hwx0_1 : ∀ i : grid0.Coords, EltTy.bits .bf16 = 32 ∨ (Rect.block (s := S12544x1024) S12544x1024.size (cc0_transform_2 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_3 i = cc0_transform_3 i'
  hinb0_2 : ∀ (i : grid0.Coords) a, (cc0_transform_3 i a + 1) * S1024.size a ≤ S1024.size a
  hwx0_2 : ∀ i : grid0.Coords, EltTy.bits .f32 = 32 ∨ (Rect.block (s := S1024) S1024.size (cc0_transform_3 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_4 i = cc0_transform_4 i'
  hinb0_3 : ∀ (i : grid0.Coords) a, (cc0_transform_4 i a + 1) * S1024x1024.size a ≤ S1024x1024.size a
  hwx0_3 : ∀ i : grid0.Coords, EltTy.bits .bf16 = 32 ∨ (Rect.block (s := S1024x1024) S1024x1024.size (cc0_transform_4 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_5 i = cc0_transform_5 i'
  hinb0_4 : ∀ (i : grid0.Coords) a, (cc0_transform_5 i a + 1) * S1024.size a ≤ S1024.size a
  hwx0_4 : ∀ i : grid0.Coords, EltTy.bits .f32 = 32 ∨ (Rect.block (s := S1024) S1024.size (cc0_transform_5 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_6 i = cc0_transform_6 i'
  hinb0_5 : ∀ (i : grid0.Coords) a, (cc0_transform_6 i a + 1) * S1024x600.size a ≤ S1024x600.size a
  hwx0_5 : ∀ i : grid0.Coords, EltTy.bits .bf16 = 32 ∨ (Rect.block (s := S1024x600) S1024x600.size (cc0_transform_6 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_7 i = cc0_transform_7 i'
  hinb0_6 : ∀ (i : grid0.Coords) a, (cc0_transform_7 i a + 1) * S600.size a ≤ S600.size a
  hwx0_6 : ∀ i : grid0.Coords, EltTy.bits .f32 = 32 ∨ (Rect.block (s := S600) S600.size (cc0_transform_7 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_8 i = cc0_transform_8 i'
  hinb0_7 : ∀ (i : grid0.Coords) a, (cc0_transform_8 i a + 1) * S256x600.size a ≤ S4096x600.size a
  hwx0_7 : ∀ i : grid0.Coords, EltTy.bits .f32 = 32 ∨ (Rect.block (s := S4096x600) S256x600.size (cc0_transform_8 i) (hinb0_7 i)).WholeWords (EltTy.packing .f32)

variable [Facts₀]

abbrev cc0_scratch1 : DmaSems sig S2 := SemArray.consecutive 10 S2 hcc0_scratch1
def gather_S100_S4096x1_S4096_n_0_n_n_0_1_1 : GatherDims S100 S4096x1 S4096 where
  offsetDims := []
  collapsedSliceDims := [0]
  operandBatchingDims := []
  startIndicesBatchingDims := []
  startIndexMap := [0]
  indexVectorDim := 1
  sliceSizes := ![1]
  wf := gather_S100_S4096x1_S4096_n_0_n_n_0_1_1_wf
def gather_S80x600_S4096x1_S4096x600_1_0_n_n_0_1_1600 : GatherDims S80x600 S4096x1 S4096x600 where
  offsetDims := [1]
  collapsedSliceDims := [0]
  operandBatchingDims := []
  startIndicesBatchingDims := []
  startIndexMap := [0]
  indexVectorDim := 1
  sliceSizes := ![1, 600]
  wf := gather_S80x600_S4096x1_S4096x600_1_0_n_n_0_1_1600_wf
def dot_S256x1792_S1792x1024_S256x1024_1_0_0_1_n_n : DotDims S256x1792 S1792x1024 S256x1024 where
  lhsContracting := [1]
  rhsContracting := [0]
  lhsNonContracting := [0]
  rhsNonContracting := [1]
  lhsBatch := []
  rhsBatch := []
  wf := dot_S256x1792_S1792x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x600_S256x600_1_0_0_1_n_n : DotDims S256x1024 S1024x600 S256x600 where
  lhsContracting := [1]
  rhsContracting := [0]
  lhsNonContracting := [0]
  rhsNonContracting := [1]
  lhsBatch := []
  rhsBatch := []
  wf := dot_S256x1024_S1024x600_S256x600_1_0_0_1_n_n_wf

abbrev win0_0 : Pipeline.Window sig grid0 :=
  Pipeline.Window.ofSpec (Memref.whole main_v35) S256x600.size cc0_transform_1 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S12544x1024.size cc0_transform_2 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S1024.size cc0_transform_3 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v38) S1024x1024.size cc0_transform_4 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S1024.size cc0_transform_5 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v39) S1024x600.size cc0_transform_6 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S600.size cc0_transform_7 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v40) S256x600.size cc0_transform_8 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x256x7x7 : Shape := ⟨4, ![4096, 256, 7, 7]⟩
abbrev S100 : Shape := ⟨1, ![100]⟩
abbrev S4096x2 : Shape := ⟨2, ![4096, 2]⟩
abbrev S80x600 : Shape := ⟨2, ![80, 600]⟩
abbrev S12544x1024 : Shape := ⟨2, ![12544, 1024]⟩
abbrev S1024 : Shape := ⟨1, ![1024]⟩
abbrev S1024x1024 : Shape := ⟨2, ![1024, 1024]⟩
abbrev S1024x600 : Shape := ⟨2, ![1024, 600]⟩
abbrev S600 : Shape := ⟨1, ![600]⟩
abbrev S4096x1 : Shape := ⟨2, ![4096, 1]⟩
abbrev S4096 : Shape := ⟨1, ![4096]⟩
abbrev S_ : Shape := ⟨0, ![]⟩
abbrev S4096x600 : Shape := ⟨2, ![4096, 600]⟩
abbrev S4096x12544 : Shape := ⟨2, ![4096, 12544]⟩
abbrev S4096x1024 : Shape := ⟨2, ![4096, 1024]⟩
abbrev S1x1024 : Shape := ⟨2, ![1, 1024]⟩
abbrev S1x600 : Shape := ⟨2, ![1, 600]⟩

abbrev nBuf : Space → Nat
  | .hbm => 83
  | .vmem => 0
  | .smem => 0
  | _ => 0

abbrev bufTy : (tb : Table) → Fin (tcTables nBuf tb) → BufTy
  | .hbm, ⟨0, _⟩ => ⟨S4096x256x7x7, .f32⟩
  | .hbm, ⟨1, _⟩ => ⟨S100, .f32⟩
  | .hbm, ⟨2, _⟩ => ⟨S100, .i32⟩
  | .hbm, ⟨3, _⟩ => ⟨S4096x2, .i32⟩
  | .hbm, ⟨4, _⟩ => ⟨S80x600, .f32⟩
  | .hbm, ⟨5, _⟩ => ⟨S12544x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x600, .f32⟩
  | .hbm, ⟨10, _⟩ => ⟨S600, .f32⟩
  | .hbm, ⟨11, _⟩ => ⟨S4096x1, .i32⟩
  | .hbm, ⟨12, _⟩ => ⟨S4096, .i32⟩
  | .hbm, ⟨13, _⟩ => ⟨S4096x1, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i32⟩
  | .hbm, ⟨21, _⟩ => ⟨S4096, .i32⟩
  | .hbm, ⟨22, _⟩ => ⟨S4096x1, .i32⟩
  | .hbm, ⟨23, _⟩ => ⟨S4096, .f32⟩
  | .hbm, ⟨24, _⟩ => ⟨S_, .i32⟩
  | .hbm, ⟨25, _⟩ => ⟨S4096, .i32⟩
  | .hbm, ⟨26, _⟩ => ⟨S4096, .i1⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S4096, .i32⟩
  | .hbm, ⟨31, _⟩ => ⟨S4096x1, .i32⟩
  | .hbm, ⟨32, _⟩ => ⟨S4096, .f32⟩
  | .hbm, ⟨33, _⟩ => ⟨S4096, .f32⟩
  | .hbm, ⟨34, _⟩ => ⟨S4096x1, .f32⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S4096, .i32⟩
  | .hbm, ⟨42, _⟩ => ⟨S4096x1, .i32⟩
  | .hbm, ⟨43, _⟩ => ⟨S4096, .i32⟩
  | .hbm, ⟨44, _⟩ => ⟨S_, .i32⟩
  | .hbm, ⟨45, _⟩ => ⟨S4096, .i32⟩
  | .hbm, ⟨46, _⟩ => ⟨S4096, .i1⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S4096, .i32⟩
  | .hbm, ⟨51, _⟩ => ⟨S4096x1, .i32⟩
  | .hbm, ⟨52, _⟩ => ⟨S4096x600, .f32⟩
  | .hbm, ⟨53, _⟩ => ⟨S4096x600, .f32⟩
  | .hbm, ⟨54, _⟩ => ⟨S4096x600, .f32⟩
  | .hbm, ⟨55, _⟩ => ⟨S4096x12544, .f32⟩
  | .hbm, ⟨56, _⟩ => ⟨S4096x1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S1x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S4096x1024, .f32⟩
  | .hbm, ⟨69, _⟩ => ⟨S4096x1024, .f32⟩
  | .hbm, ⟨70, _⟩ => ⟨S4096x600, .f32⟩
  | .hbm, ⟨71, _⟩ => ⟨S1x600, .f32⟩
  | .hbm, ⟨72, _⟩ => ⟨S4096x600, .f32⟩
  | .hbm, ⟨73, _⟩ => ⟨S4096x600, .f32⟩
  | .hbm, ⟨74, _⟩ => ⟨S4096x600, .f32⟩
  | .hbm, ⟨75, _⟩ => ⟨S4096x600, .f32⟩
  | .hbm, ⟨76, _⟩ => ⟨S_, .f32⟩
  | .hbm, ⟨77, _⟩ => ⟨S4096x600, .f32⟩
  | .hbm, ⟨78, _⟩ => ⟨S4096x600, .f32⟩
  | .hbm, ⟨79, _⟩ => ⟨S_, .f32⟩
  | .hbm, ⟨80, _⟩ => ⟨S4096x600, .f32⟩
  | .hbm, ⟨81, _⟩ => ⟨S4096x600, .f32⟩
  | .hbm, ⟨82, _⟩ => ⟨S4096x600, .f32⟩
  | _, _ => ⟨S4096x256x7x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call0_cst : Ref sig .tc := ⟨.hbm, 60, rfl⟩
abbrev main_call0_v0 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call1_cst : Ref sig .tc := ⟨.hbm, 67, rfl⟩
abbrev main_call1_v0 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst : Ref sig .tc := ⟨.hbm, 76, rfl⟩
abbrev main_v53 : Ref sig .tc := ⟨.hbm, 77, rfl⟩
abbrev main_v54 : Ref sig .tc := ⟨.hbm, 78, rfl⟩
abbrev main_cst_7 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩

abbrev nD : Nat := 1
abbrev τ : Topo := Topo.v7x

variable {F : FTy → Type} [FloatOps F]

class Facts₀ : Prop where
  slices_S4096x2_S4096x1_0_0 : S4096x2.Slices ![0, 0] S4096x1
  shapeCasts_S4096x1_S4096 : S4096x1.ShapeCasts S4096
  slices_S4096x2_S4096x1_0_1 : S4096x2.Slices ![0, 1] S4096x1
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x600_0_1 : S4096x1.BroadcastsInDim S4096x600 (![0, 1] : Fin 2 → Fin S4096x600.rank)
  shapeCasts_S4096x256x7x7_S4096x12544 : S4096x256x7x7.ShapeCasts S4096x12544
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  bcast_S600_S1x600_1 : S600.BroadcastsInDim S1x600 (![1] : Fin 1 → Fin S1x600.rank)
  bcast_S1x600_S4096x600_0_1 : S1x600.BroadcastsInDim S4096x600 (![0, 1] : Fin 2 → Fin S4096x600.rank)
  bcast_S_S4096x600 : S_.BroadcastsInDim S4096x600 (![] : Fin 0 → Fin S4096x600.rank)
  gather_S100_S4096x1_S4096_n_0_n_n_0_1_1_wf : GatherDims.WF S100 S4096x1 S4096 [] [0] [] [0] [] 1 ![1]
  gather_S80x600_S4096x1_S4096x600_1_0_n_n_0_1_1600_wf : GatherDims.WF S80x600 S4096x1 S4096x600 [1] [0] [] [0] [] 1 ![1, 600]
  dot_S4096x12544_S12544x1024_S4096x1024_1_0_0_1_n_n_wf : DotDims.WF S4096x12544 S12544x1024 S4096x1024 [1] [0] [0] [1] [] []
  dot_S4096x1024_S1024x1024_S4096x1024_1_0_0_1_n_n_wf : DotDims.WF S4096x1024 S1024x1024 S4096x1024 [1] [0] [0] [1] [] []
  dot_S4096x1024_S1024x600_S4096x600_1_0_0_1_n_n_wf : DotDims.WF S4096x1024 S1024x600 S4096x600 [1] [0] [0] [1] [] []

variable [Facts₀]

def gather_S100_S4096x1_S4096_n_0_n_n_0_1_1 : GatherDims S100 S4096x1 S4096 where
  offsetDims := []
  collapsedSliceDims := [0]
  operandBatchingDims := []
  startIndicesBatchingDims := []
  startIndexMap := [0]
  indexVectorDim := 1
  sliceSizes := ![1]
  wf := gather_S100_S4096x1_S4096_n_0_n_n_0_1_1_wf
def gather_S80x600_S4096x1_S4096x600_1_0_n_n_0_1_1600 : GatherDims S80x600 S4096x1 S4096x600 where
  offsetDims := [1]
  collapsedSliceDims := [0]
  operandBatchingDims := []
  startIndicesBatchingDims := []
  startIndexMap := [0]
  indexVectorDim := 1
  sliceSizes := ![1, 600]
  wf := gather_S80x600_S4096x1_S4096x600_1_0_n_n_0_1_1600_wf
def dot_S4096x12544_S12544x1024_S4096x1024_1_0_0_1_n_n : DotDims S4096x12544 S12544x1024 S4096x1024 where
  lhsContracting := [1]
  rhsContracting := [0]
  lhsNonContracting := [0]
  rhsNonContracting := [1]
  lhsBatch := []
  rhsBatch := []
  wf := dot_S4096x12544_S12544x1024_S4096x1024_1_0_0_1_n_n_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x600_S4096x600_1_0_0_1_n_n : DotDims S4096x1024 S1024x600 S4096x600 where
  lhsContracting := [1]
  rhsContracting := [0]
  lhsNonContracting := [0]
  rhsNonContracting := [1]
  lhsBatch := []
  rhsBatch := []
  wf := dot_S4096x1024_S1024x600_S4096x600_1_0_0_1_n_n_wf

class Facts : Prop extends Facts₀ where

variable [Facts]
-- ==== Proof.LibSlotRead.lean ====
/-
  A slot filled whole and read back.

  A transfer into a buffer's slot goes through the slot's own view with its unit axis dropped; the body then loads the
  slot through the buffer itself, at the slot's rectangle. What is read is the transfer's payload, re-indexed by the
  dropped axis — and nothing of what the buffer held before: the write through the reshaped view is the write through
  the slot's rectangle of the re-indexed payload, and a whole-mask write read back through the same view is its payload.
  A transfer into the OTHER slot, already listed when the load happens, touches none of the elements the load reads.
-/
import Idealize.ShloMosaic.Lib.Writes
import Idealize.ShloMosaic.Lib.Exec.Geometry

noncomputable section

namespace Cert.LibSlotRead

open Idealize.ShloMosaic

variable {sig : RefSig} {κ : Kind} {sp : Space} {s : Shape} {e : EltTy} {Val : EltTy → Type}

/-- Reading a rectangle of a view after the rectangle was filled, on its whole mask, through its reshaped view: the
    payload re-indexed, whatever the contents were before. -/
theorem readAt_reshaped_fill (v : View sig κ sp s e) (R : Rect s) {s' : Shape} (hn : s'.numel = R.shape.numel)
    (base : ((v.slice R).reshape s' hn).ty.Contents Val) (d : s'.Idx → Val e) :
    v.readAt Val R.toLoadRect (((v.slice R).reshape s' hn).write Val base d Finset.univ)
      = fun x => d ((Shape.reshapeEquiv hn).symm x) := by
  show (v.slice R).read Val (((v.slice R).reshape s' hn).write Val base d Finset.univ) = _
  rw [View.write_reshape_univ, View.read_write_univ]

/-- Filling ANOTHER rectangle, one the load's box is separated from, changes nothing the load reads. -/
theorem readAt_other_fill (v : View sig κ sp s e) (R' : Rect s) (B : LoadRect s) (hd : LoadRect.disj R' B = true)
    {s' : Shape} (hn : s'.numel = R'.shape.numel) (base : ((v.slice R').reshape s' hn).ty.Contents Val)
    (d : s'.Idx → Val e) :
    v.readAt Val B (((v.slice R').reshape s' hn).write Val base d Finset.univ) = v.readAt Val B base := by
  funext x
  rw [View.readAt_apply, View.readAt_apply, View.read_apply, View.read_apply]
  refine congrArg _ (View.write_of_not_mem _ _ _ ?_)
  rw [View.setOn_univ, View.set_reshape, View.set_slice]
  intro hm
  exact LoadRect.idx_not_mem_of_disj hd x ((Finset.mem_map' v.emb).mp hm)

end Cert.LibSlotRead

end
-- ==== Proof.HostSide.lean ====
/-
  What the region finds in the arrays its operands are read from, as functions of the program's arguments.

  Before the kernel is launched the host computes the prior scores (two slices of the index pairs, three
  look-ups and a product), flattens the features to [4096, 12544] and changes the three weight matrices'
  float format. None of this is opened here: the prior is the very chain of operations the reference applies
  to the same arguments, so it is named by the reference's own stage; the flattening likewise; a change of
  float format is the identity on the extended reals.
-/
import proofs.«127507_j13185549599248_2_alg».proof.Proof.Gen.KernelIdeal.Frame.Runs
import proofs.«127507_j13185549599248_2_alg».proof.Proof.Gen.ReferenceIdeal.Read
import Idealize.ShloMosaic.Lib.StableHlo.Run

noncomputable section

namespace Cert.KernelIdeal.HostSide

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxHeartbeats 4000000 in
/-- The prior scores the first window reads are the reference's prior of the same four arguments. -/
theorem prior_eq (c : Dev nD) :
    (V m c main_v35 : S4096x600.Idx → EReal)
      = Cert.ReferenceIdeal.Read.val_main_v35 (F := Ideal) (m ((c : Thread nD τ).loc main_arg1))
          (m ((c : Thread nD τ).loc main_arg2)) (m ((c : Thread nD τ).loc main_arg3)) (m ((c : Thread nD τ).loc main_arg4)) := by
  dsimp only [V, hostOps0]
  after_results_simp <;> rfl

/-- The flattened features the body copies in are the reference's flattening of the same argument. -/
theorem feats_eq (c : Dev nD) :
    (V m c main_v36 : S4096x12544.Idx → EReal)
      = Cert.ReferenceIdeal.Read.val_main_v36 (F := Ideal) (m ((c : Thread nD τ).loc main_arg0)) := by
  dsimp only [V, hostOps0]
  after_results
  rfl

/-- The first weight matrix after its change of format is the argument, entry by entry. -/
theorem w1_eq (c : Dev nD) :
    (V m c main_v37 : S12544x1024.Idx → EReal) = m ((c : Thread nD τ).loc main_arg5) := by
  dsimp only [V, hostOps0]
  after_results
  rfl

/-- The second weight matrix likewise. -/
theorem w2_eq (c : Dev nD) :
    (V m c main_v38 : S1024x1024.Idx → EReal) = m ((c : Thread nD τ).loc main_arg7) := by
  dsimp only [V, hostOps0]
  after_results
  rfl

/-- The third weight matrix likewise. -/
theorem w3_eq (c : Dev nD) :
    (V m c main_v39 : S1024x600.Idx → EReal) = m ((c : Thread nD τ).loc main_arg9) := by
  dsimp only [V, hostOps0]
  after_results
  rfl

end Cert.KernelIdeal.HostSide

end
-- ==== Proof.MlpSpec.lean ====
/-
  The mathematics of the pair classifier, stated once over plain index types, and the one algebraic
  law the comparison needs.

  For a row `r` of the flattened features `X : [4096, 12544]` the three-layer perceptron is
    h1 r j    = max (Σ_k X r k · W1 k j + b1 j) 0,
    h2 r j    = max (Σ_k h1 r k · W2 k j + b2 j) 0,
    logit r q = Σ_k h2 r k · W3 k q + b3 q,
    out r q   = P r q · 1 / (1 + e^(-logit r q)),
  every operation the exact one on the extended reals, `P` the prior scores.

  The law: a sum over 12544 = 7 · 1792 terms is the sum of its seven consecutive runs of 1792, added
  one after the other onto zero. It uses only commutativity and associativity of addition, so it
  holds on the extended reals with no finiteness assumption.
-/
import Idealize.ShloMosaic.PureOps.Ideal
import Idealize.ShloMosaic.Lib.ValueIdx

noncomputable section

namespace Cert.PairMlp

open Idealize.ShloMosaic Idealize.ShloMosaic.ValueIdx

/-- The arrays' shapes, spelt out. -/
abbrev ShX : Shape := ⟨2, ![4096, 12544]⟩
abbrev ShW1 : Shape := ⟨2, ![12544, 1024]⟩
abbrev ShW2 : Shape := ⟨2, ![1024, 1024]⟩
abbrev ShW3 : Shape := ⟨2, ![1024, 600]⟩
abbrev ShB : Shape := ⟨1, ![1024]⟩
abbrev ShB3 : Shape := ⟨1, ![600]⟩
abbrev ShOut : Shape := ⟨2, ![4096, 600]⟩

variable (X : ShX.Idx → EReal) (W1 : ShW1.Idx → EReal) (b1 : ShB.Idx → EReal)
  (W2 : ShW2.Idx → EReal) (b2 : ShB.Idx → EReal) (W3 : ShW3.Idx → EReal) (b3 : ShB3.Idx → EReal)

/-- The first layer's pre-activation: row `r` of `X` against column `j` of `W1`. -/
def pre1 (r : Fin 4096) (j : Fin 1024) : EReal :=
  ∑ k : Fin 12544, X (ix2 r k) * W1 (ix2 k j)

/-- The first hidden layer, rectified. -/
def h1 (r : Fin 4096) (j : Fin 1024) : EReal :=
  max (pre1 X W1 r j + b1 (ix1 j)) 0

/-- The second hidden layer, rectified. -/
def h2 (r : Fin 4096) (j : Fin 1024) : EReal :=
  max ((∑ k : Fin 1024, h1 X W1 b1 r k * W2 (ix2 k j)) + b2 (ix1 j)) 0

/-- The logits. -/
def logit (r : Fin 4096) (q : Fin 600) : EReal :=
  (∑ k : Fin 1024, h2 X W1 b1 W2 b2 r k * W3 (ix2 k q)) + b3 (ix1 q)

/-- The result: the prior times the logistic of the logit, entry by entry. -/
def G (P : ShOut.Idx → EReal) : ShOut.Idx → EReal :=
  fun i => P i * Ideal.logistic (logit X W1 b1 W2 b2 W3 b3 (i 0) (i 1))

theorem G_apply (P : ShOut.Idx → EReal) (r : Fin 4096) (q : Fin 600) :
    G X W1 b1 W2 b2 W3 b3 P (ix2 r q) = P (ix2 r q) * Ideal.logistic (logit X W1 b1 W2 b2 W3 b3 r q) := rfl

/-! ## Seven runs of 1792 make 12544 -/

/-- Position `k` of run `c`. -/
abbrev runIdx (c : Fin 7) (k : Fin 1792) : Fin 12544 :=
  ⟨1792 * c.val + k.val, by have := c.isLt; have := k.isLt; omega⟩

/-- A sum over 12544 terms, run by run. -/
theorem sum_runs {M : Type*} [AddCommMonoid M] (f : Fin 12544 → M) :
    ∑ k : Fin 12544, f k = ∑ c : Fin 7, ∑ k : Fin 1792, f (runIdx c k) := by
  rw [← Equiv.sum_comp (finProdFinEquiv : Fin 7 × Fin 1792 ≃ Fin 12544) f, Fintype.sum_prod_type]
  refine Finset.sum_congr rfl fun c _ => Finset.sum_congr rfl fun k _ => congrArg f (Fin.ext ?_)
  show k.val + 1792 * c.val = 1792 * c.val + k.val
  omega

/-- The runs added one after the other onto zero, as an accumulator does it, give the whole sum. -/
theorem chain_runs {M : Type*} [AddCommMonoid M] (f : Fin 12544 → M) :
    ((((((0 + ∑ k : Fin 1792, f (runIdx 0 k)) + ∑ k : Fin 1792, f (runIdx 1 k))
        + ∑ k : Fin 1792, f (runIdx 2 k)) + ∑ k : Fin 1792, f (runIdx 3 k))
        + ∑ k : Fin 1792, f (runIdx 4 k)) + ∑ k : Fin 1792, f (runIdx 5 k))
        + ∑ k : Fin 1792, f (runIdx 6 k)
      = ∑ k : Fin 12544, f k := by
  rw [sum_runs f, Fin.sum_univ_seven, zero_add]

end Cert.PairMlp

end
-- ==== Proof.RefValue.lean ====
/-
  The reference computes the pair classifier's function.

  Its last stage, read at an entry (r, q): the prior times 1 / (1 + e^(-z)), where z is the third layer's
  pre-activation of row r — each matrix product a plain sum over the contracted axis on the extended reals, each
  bias added along its row, each rectification a maximum with zero. The quotient spelt with a negation, an
  exponential, an addition of one and a division is the logistic function's definition.
-/
import proofs.«127507_j13185549599248_2_alg».proof.Proof.Gen.ReferenceIdeal.Read
import proofs.«127507_j13185549599248_2_alg».proof.Proof.MlpSpec

noncomputable section

namespace Cert.ReferenceIdeal.RefValue

open Cert.ReferenceIdeal Cert.ReferenceIdeal.Read Idealize.ShloMosaic Idealize.ShloMosaic.ValueIdx Cert.PairMlp

variable (x0 : (⟨S4096x256x7x7, .f32⟩ : BufTy).Contents (Elt Ideal)) (x5 : (⟨S12544x1024, .f32⟩ : BufTy).Contents (Elt Ideal))
  (x6 : (⟨S1024, .f32⟩ : BufTy).Contents (Elt Ideal)) (x7 : (⟨S1024x1024, .f32⟩ : BufTy).Contents (Elt Ideal)) (x8 : (⟨S1024, .f32⟩ : BufTy).Contents (Elt Ideal))
  (x9 : (⟨S1024x600, .f32⟩ : BufTy).Contents (Elt Ideal)) (x10 : (⟨S600, .f32⟩ : BufTy).Contents (Elt Ideal))

/-- The float pattern of one. -/
theorem one_f32 : Ideal.ofBits .f32 0x3F800000#32 = 1 := by
  simp [Ideal.ofBits, Ideal.ieee, -EReal.coe_mul]; norm_num

/-- The first product: row r of the flattened features against column j of the first weights. -/
theorem dot1_at (r : Fin 4096) (j : Fin 1024) :
    val_main_v37 (F := Ideal) x0 x5 (ix2 r j) = pre1 (val_main_v36 (F := Ideal) x0) x5 r j := by
  rw [val_main_v37_apply]
  unfold pre1
  refine Finset.sum_congr rfl fun k _ => ?_
  have el : lidx_main_v37 (ix2 r j) k = ix2 r k :=
    funext fun a => Fin.ext (by match a with | ⟨0, _⟩ => rfl | ⟨1, _⟩ => rfl)
  have er : ridx_main_v37 (ix2 r j) k = ix2 k j :=
    funext fun a => Fin.ext (by match a with | ⟨0, _⟩ => rfl | ⟨1, _⟩ => rfl)
  rw [el, er]

/-- A bias of length 1024 laid along the rows: entry (r, j) is its entry j. -/
theorem bias1_at (r : Fin 4096) (j : Fin 1024) : val_main_v39 (F := Ideal) x6 (ix2 r j) = x6 (ix1 j) := by
  rw [val_main_v39_apply, val_main_v38_apply]
  exact congrArg x6 (funext fun a => Fin.ext (by match a with | ⟨0, _⟩ => rfl))

theorem bias2_at (r : Fin 4096) (j : Fin 1024) : val_main_v44 (F := Ideal) x8 (ix2 r j) = x8 (ix1 j) := by
  rw [val_main_v44_apply, val_main_v43_apply]
  exact congrArg x8 (funext fun a => Fin.ext (by match a with | ⟨0, _⟩ => rfl))

theorem bias3_at (r : Fin 4096) (q : Fin 600) : val_main_v49 (F := Ideal) x10 (ix2 r q) = x10 (ix1 q) := by
  rw [val_main_v49_apply, val_main_v48_apply]
  exact congrArg x10 (funext fun a => Fin.ext (by match a with | ⟨0, _⟩ => rfl))

/-- The zero the rectifications compare with. -/
theorem zero1_at (i : S4096x1024.Idx) : val_main_call0_v0 (F := Ideal) i = 0 := by
  rw [val_main_call0_v0_apply, val_main_call0_cst_apply]
  exact Ideal.ofBits_zero_f32

theorem zero2_at (i : S4096x1024.Idx) : val_main_call1_v0 (F := Ideal) i = 0 := by
  rw [val_main_call1_v0_apply, val_main_call1_cst_apply]
  exact Ideal.ofBits_zero_f32

/-- The first hidden layer. -/
theorem hidden1_at (r : Fin 4096) (j : Fin 1024) :
    val_main_v41 (F := Ideal) x0 x5 x6 (ix2 r j) = h1 (val_main_v36 (F := Ideal) x0) x5 x6 r j := by
  rw [val_main_v41_apply, val_main_v40_apply, dot1_at, bias1_at, zero1_at]
  rfl

/-- The second hidden layer. -/
theorem hidden2_at (r : Fin 4096) (j : Fin 1024) :
    val_main_v46 (F := Ideal) x0 x5 x6 x7 x8 (ix2 r j) = h2 (val_main_v36 (F := Ideal) x0) x5 x6 x7 x8 r j := by
  rw [val_main_v46_apply, val_main_v45_apply, val_main_v42_apply, bias2_at, zero2_at]
  unfold h2
  have e : ∀ k : Fin 1024, (val_main_v41 (F := Ideal) x0 x5 x6) (lidx_main_v42 (ix2 r j) k) * x7 (ridx_main_v42 (ix2 r j) k)
      = h1 (val_main_v36 (F := Ideal) x0) x5 x6 r k * x7 (ix2 k j) := fun k => by
    have el : lidx_main_v42 (ix2 r j) k = ix2 r k :=
      funext fun a => Fin.ext (by match a with | ⟨0, _⟩ => rfl | ⟨1, _⟩ => rfl)
    have er : ridx_main_v42 (ix2 r j) k = ix2 k j :=
      funext fun a => Fin.ext (by match a with | ⟨0, _⟩ => rfl | ⟨1, _⟩ => rfl)
    rw [el, er, hidden1_at]
  rw [Finset.sum_congr rfl fun k _ => e k]
  rfl

/-- The logits. -/
theorem logit_at (r : Fin 4096) (q : Fin 600) :
    val_main_v50 (F := Ideal) x0 x5 x6 x7 x8 x9 x10 (ix2 r q)
      = logit (val_main_v36 (F := Ideal) x0) x5 x6 x7 x8 x9 x10 r q := by
  rw [val_main_v50_apply, val_main_v47_apply, bias3_at]
  unfold logit
  have e : ∀ k : Fin 1024, (val_main_v46 (F := Ideal) x0 x5 x6 x7 x8) (lidx_main_v47 (ix2 r q) k) * x9 (ridx_main_v47 (ix2 r q) k)
      = h2 (val_main_v36 (F := Ideal) x0) x5 x6 x7 x8 r k * x9 (ix2 k q) := fun k => by
    have el : lidx_main_v47 (ix2 r q) k = ix2 r k :=
      funext fun a => Fin.ext (by match a with | ⟨0, _⟩ => rfl | ⟨1, _⟩ => rfl)
    have er : ridx_main_v47 (ix2 r q) k = ix2 k q :=
      funext fun a => Fin.ext (by match a with | ⟨0, _⟩ => rfl | ⟨1, _⟩ => rfl)
    rw [el, er, hidden2_at]
  rw [Finset.sum_congr rfl fun k _ => e k]
  rfl

/-- One over one plus the exponential of the negated logit is the logistic of the logit. -/
theorem sigmoid_at (r : Fin 4096) (q : Fin 600) :
    val_main_v56 (F := Ideal) x0 x5 x6 x7 x8 x9 x10 (ix2 r q)
      = Ideal.logistic (logit (val_main_v36 (F := Ideal) x0) x5 x6 x7 x8 x9 x10 r q) := by
  rw [val_main_v56_apply, val_main_v55_apply, val_main_cst_7_apply, val_main_v54_apply, val_main_v53_apply,
    val_main_cst_apply, val_main_v52_apply, val_main_v51_apply, logit_at]
  show Ideal.div (Ideal.ofBits .f32 0x3F800000#32) (Ideal.ofBits .f32 0x3F800000#32 + Ideal.exp (-_)) = _
  rw [one_f32]
  rfl

variable (x1 : (⟨S100, .f32⟩ : BufTy).Contents (Elt Ideal)) (x2 : (⟨S100, .i32⟩ : BufTy).Contents (Elt Ideal)) (x3 : (⟨S4096x2, .i32⟩ : BufTy).Contents (Elt Ideal))
  (x4 : (⟨S80x600, .f32⟩ : BufTy).Contents (Elt Ideal))

/-- The reference's result is the classifier's function of its flattened features, its prior and the weights. -/
theorem result_eq :
    val_main_v57 (F := Ideal) x0 x1 x2 x3 x4 x5 x6 x7 x8 x9 x10
      = G (val_main_v36 (F := Ideal) x0) x5 x6 x7 x8 x9 x10 (val_main_v35 (F := Ideal) x1 x2 x3 x4) := by
  funext i
  obtain ⟨r, q, rfl⟩ : ∃ (r : Fin 4096) (q : Fin 600), i = ix2 r q := ⟨i 0, i 1, eq_ix2 i⟩
  rw [val_main_v57_apply, sigmoid_at, G_apply]
  rfl

end Cert.ReferenceIdeal.RefValue

end
-- ==== Proof.BodyValue.lean ====
/-
  The body's arithmetic, read at one entry.

  The body's one store to its output block is a fixed composition of pure steps: the accumulator is cleared, seven
  times a [256, 1792] run of the features is multiplied into it against the matching 1792 rows of the first weights,
  and the result passes through bias, rectification, two more products with their biases, and finally the prior
  times the logistic. Here each step is read at an entry (p, q) of the block, as functions of the seven feature
  runs, the seven weight runs and the remaining operands, with no reference to where those were loaded from.
-/
import proofs.«127507_j13185549599248_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BodyValue

open Cert.KernelIdeal Cert.KernelIdeal.Gen Idealize.ShloMosaic Idealize.ShloMosaic.ValueIdx

theorem dot_run_l0 (i : S256x1024.Idx) (q : dot_S256x1792_S1792x1024_S256x1024_1_0_0_1_n_n.contr.Idx) : (dot_S256x1792_S1792x1024_S256x1024_1_0_0_1_n_n.lhsIdx i q 0).val = (i 0).val := by
  unfold DotDims.lhsIdx
  rw [dif_neg (show ¬(0 : Fin S256x1792.rank) ∈ dot_S256x1792_S1792x1024_S256x1024_1_0_0_1_n_n.lhsBatch by decide),
    dif_pos (show (0 : Fin S256x1792.rank) ∈ dot_S256x1792_S1792x1024_S256x1024_1_0_0_1_n_n.lhsNonContracting by decide)]
  rfl
theorem dot_run_l1 (i : S256x1024.Idx) (q : dot_S256x1792_S1792x1024_S256x1024_1_0_0_1_n_n.contr.Idx) : (dot_S256x1792_S1792x1024_S256x1024_1_0_0_1_n_n.lhsIdx i q 1).val = (q ⟨0, by decide⟩).val :=
  dot_S256x1792_S1792x1024_S256x1024_1_0_0_1_n_n.lhsIdx_val_of_single rfl i q
theorem dot_run_r0 (i : S256x1024.Idx) (q : dot_S256x1792_S1792x1024_S256x1024_1_0_0_1_n_n.contr.Idx) : (dot_S256x1792_S1792x1024_S256x1024_1_0_0_1_n_n.rhsIdx i q 0).val = (q ⟨0, by decide⟩).val :=
  dot_S256x1792_S1792x1024_S256x1024_1_0_0_1_n_n.rhsIdx_val_of_single rfl i q
theorem dot_run_r1 (i : S256x1024.Idx) (q : dot_S256x1792_S1792x1024_S256x1024_1_0_0_1_n_n.contr.Idx) : (dot_S256x1792_S1792x1024_S256x1024_1_0_0_1_n_n.rhsIdx i q 1).val = (i 1).val := by
  unfold DotDims.rhsIdx
  rw [dif_neg (show ¬(1 : Fin S1792x1024.rank) ∈ dot_S256x1792_S1792x1024_S256x1024_1_0_0_1_n_n.rhsBatch by decide),
    dif_pos (show (1 : Fin S1792x1024.rank) ∈ dot_S256x1792_S1792x1024_S256x1024_1_0_0_1_n_n.rhsNonContracting by decide)]
  rfl

/-- Row p of a [256, 1792] block against column j of a [1792, 1024] block, accumulated into zero: the plain sum over
    the contracted axis. -/
theorem dot_run (l : FVec Ideal S256x1792 .bf16) (r : FVec Ideal S1792x1024 .bf16) (p : Fin 256) (j : Fin 1024) :
    matmul dot_S256x1792_S1792x1024_S256x1024_1_0_0_1_n_n none l r (constant _ .f32 0x00000000#32) (ix2 p j)
      = ∑ k : Fin 1792, l (ix2 p k) * r (ix2 k j) := by
  refine (Ideal.matmul_constant_zero_apply dot_S256x1792_S1792x1024_S256x1024_1_0_0_1_n_n none l r (ix2 p j)).trans ?_
  rw [← Equiv.sum_comp (ValueIdx.contrEquiv1 dot_S256x1792_S1792x1024_S256x1024_1_0_0_1_n_n 1792 rfl rfl).symm]
  refine Finset.sum_congr rfl fun k _ => ?_
  have hk := ValueIdx.contrEquiv1_symm_val dot_S256x1792_S1792x1024_S256x1024_1_0_0_1_n_n 1792 rfl rfl k
  have el : dot_S256x1792_S1792x1024_S256x1024_1_0_0_1_n_n.lhsIdx (ix2 p j) ((ValueIdx.contrEquiv1 dot_S256x1792_S1792x1024_S256x1024_1_0_0_1_n_n 1792 rfl rfl).symm k) = ix2 p k :=
    funext fun a => Fin.ext (by
      match a with
      | ⟨0, _⟩ => exact dot_run_l0 _ _
      | ⟨1, _⟩ => exact (dot_run_l1 _ _).trans hk)
  have er : dot_S256x1792_S1792x1024_S256x1024_1_0_0_1_n_n.rhsIdx (ix2 p j) ((ValueIdx.contrEquiv1 dot_S256x1792_S1792x1024_S256x1024_1_0_0_1_n_n 1792 rfl rfl).symm k) = ix2 k j :=
    funext fun a => Fin.ext (by
      match a with
      | ⟨0, _⟩ => exact (dot_run_r0 _ _).trans hk
      | ⟨1, _⟩ => exact dot_run_r1 _ _)
  rw [el, er]

theorem dot_mid_l0 (i : S256x1024.Idx) (q : dot_S256x1024_S1024x1024_S256x1024_1_0_0_1_n_n.contr.Idx) : (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide),
    dif_pos (show (0 : Fin S256x1024.rank) ∈ dot_S256x1024_S1024x1024_S256x1024_1_0_0_1_n_n.lhsNonContracting by decide)]
  rfl
theorem dot_mid_l1 (i : S256x1024.Idx) (q : dot_S256x1024_S1024x1024_S256x1024_1_0_0_1_n_n.contr.Idx) : (dot_S256x1024_S1024x1024_S256x1024_1_0_0_1_n_n.lhsIdx i q 1).val = (q ⟨0, by decide⟩).val :=
  dot_S256x1024_S1024x1024_S256x1024_1_0_0_1_n_n.lhsIdx_val_of_single rfl i q
theorem dot_mid_r0 (i : S256x1024.Idx) (q : dot_S256x1024_S1024x1024_S256x1024_1_0_0_1_n_n.contr.Idx) : (dot_S256x1024_S1024x1024_S256x1024_1_0_0_1_n_n.rhsIdx i q 0).val = (q ⟨0, by decide⟩).val :=
  dot_S256x1024_S1024x1024_S256x1024_1_0_0_1_n_n.rhsIdx_val_of_single rfl i q
theorem dot_mid_r1 (i : S256x1024.Idx) (q : dot_S256x1024_S1024x1024_S256x1024_1_0_0_1_n_n.contr.Idx) : (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide),
    dif_pos (show (1 : Fin S1024x1024.rank) ∈ dot_S256x1024_S1024x1024_S256x1024_1_0_0_1_n_n.rhsNonContracting by decide)]
  rfl

/-- Row p of a [256, 1024] block against column j of a [1024, 1024] block, accumulated into zero: the plain sum over
    the contracted axis. -/
theorem dot_mid (l : FVec Ideal S256x1024 .bf16) (r : FVec Ideal S1024x1024 .bf16) (p : Fin 256) (j : Fin 1024) :
    matmul dot_S256x1024_S1024x1024_S256x1024_1_0_0_1_n_n none l r (constant _ .f32 0x00000000#32) (ix2 p j)
      = ∑ k : Fin 1024, l (ix2 p k) * r (ix2 k j) := by
  refine (Ideal.matmul_constant_zero_apply dot_S256x1024_S1024x1024_S256x1024_1_0_0_1_n_n none l r (ix2 p j)).trans ?_
  rw [← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx (ix2 p j) ((ValueIdx.contrEquiv1 dot_S256x1024_S1024x1024_S256x1024_1_0_0_1_n_n 1024 rfl rfl).symm k) = ix2 p k :=
    funext fun a => Fin.ext (by
      match a with
      | ⟨0, _⟩ => exact dot_mid_l0 _ _
      | ⟨1, _⟩ => exact (dot_mid_l1 _ _).trans hk)
  have er : dot_S256x1024_S1024x1024_S256x1024_1_0_0_1_n_n.rhsIdx (ix2 p j) ((ValueIdx.contrEquiv1 dot_S256x1024_S1024x1024_S256x1024_1_0_0_1_n_n 1024 rfl rfl).symm k) = ix2 k j :=
    funext fun a => Fin.ext (by
      match a with
      | ⟨0, _⟩ => exact (dot_mid_r0 _ _).trans hk
      | ⟨1, _⟩ => exact dot_mid_r1 _ _)
  rw [el, er]

theorem dot_out_l0 (i : S256x600.Idx) (q : dot_S256x1024_S1024x600_S256x600_1_0_0_1_n_n.contr.Idx) : (dot_S256x1024_S1024x600_S256x600_1_0_0_1_n_n.lhsIdx i q 0).val = (i 0).val := by
  unfold DotDims.lhsIdx
  rw [dif_neg (show ¬(0 : Fin S256x1024.rank) ∈ dot_S256x1024_S1024x600_S256x600_1_0_0_1_n_n.lhsBatch by decide),
    dif_pos (show (0 : Fin S256x1024.rank) ∈ dot_S256x1024_S1024x600_S256x600_1_0_0_1_n_n.lhsNonContracting by decide)]
  rfl
theorem dot_out_l1 (i : S256x600.Idx) (q : dot_S256x1024_S1024x600_S256x600_1_0_0_1_n_n.contr.Idx) : (dot_S256x1024_S1024x600_S256x600_1_0_0_1_n_n.lhsIdx i q 1).val = (q ⟨0, by decide⟩).val :=
  dot_S256x1024_S1024x600_S256x600_1_0_0_1_n_n.lhsIdx_val_of_single rfl i q
theorem dot_out_r0 (i : S256x600.Idx) (q : dot_S256x1024_S1024x600_S256x600_1_0_0_1_n_n.contr.Idx) : (dot_S256x1024_S1024x600_S256x600_1_0_0_1_n_n.rhsIdx i q 0).val = (q ⟨0, by decide⟩).val :=
  dot_S256x1024_S1024x600_S256x600_1_0_0_1_n_n.rhsIdx_val_of_single rfl i q
theorem dot_out_r1 (i : S256x600.Idx) (q : dot_S256x1024_S1024x600_S256x600_1_0_0_1_n_n.contr.Idx) : (dot_S256x1024_S1024x600_S256x600_1_0_0_1_n_n.rhsIdx i q 1).val = (i 1).val := by
  unfold DotDims.rhsIdx
  rw [dif_neg (show ¬(1 : Fin S1024x600.rank) ∈ dot_S256x1024_S1024x600_S256x600_1_0_0_1_n_n.rhsBatch by decide),
    dif_pos (show (1 : Fin S1024x600.rank) ∈ dot_S256x1024_S1024x600_S256x600_1_0_0_1_n_n.rhsNonContracting by decide)]
  rfl

/-- Row p of a [256, 1024] block against column j of a [1024, 600] block, accumulated into zero: the plain sum over
    the contracted axis. -/
theorem dot_out (l : FVec Ideal S256x1024 .bf16) (r : FVec Ideal S1024x600 .bf16) (p : Fin 256) (j : Fin 600) :
    matmul dot_S256x1024_S1024x600_S256x600_1_0_0_1_n_n none l r (constant _ .f32 0x00000000#32) (ix2 p j)
      = ∑ k : Fin 1024, l (ix2 p k) * r (ix2 k j) := by
  refine (Ideal.matmul_constant_zero_apply dot_S256x1024_S1024x600_S256x600_1_0_0_1_n_n none l r (ix2 p j)).trans ?_
  rw [← Equiv.sum_comp (ValueIdx.contrEquiv1 dot_S256x1024_S1024x600_S256x600_1_0_0_1_n_n 1024 rfl rfl).symm]
  refine Finset.sum_congr rfl fun k _ => ?_
  have hk := ValueIdx.contrEquiv1_symm_val dot_S256x1024_S1024x600_S256x600_1_0_0_1_n_n 1024 rfl rfl k
  have el : dot_S256x1024_S1024x600_S256x600_1_0_0_1_n_n.lhsIdx (ix2 p j) ((ValueIdx.contrEquiv1 dot_S256x1024_S1024x600_S256x600_1_0_0_1_n_n 1024 rfl rfl).symm k) = ix2 p k :=
    funext fun a => Fin.ext (by
      match a with
      | ⟨0, _⟩ => exact dot_out_l0 _ _
      | ⟨1, _⟩ => exact (dot_out_l1 _ _).trans hk)
  have er : dot_S256x1024_S1024x600_S256x600_1_0_0_1_n_n.rhsIdx (ix2 p j) ((ValueIdx.contrEquiv1 dot_S256x1024_S1024x600_S256x600_1_0_0_1_n_n 1024 rfl rfl).symm k) = ix2 k j :=
    funext fun a => Fin.ext (by
      match a with
      | ⟨0, _⟩ => exact (dot_out_r0 _ _).trans hk
      | ⟨1, _⟩ => exact dot_out_r1 _ _)
  rw [el, er]

/-- One run's contribution to entry (p, j) of the accumulator: the run of features (laid out [1, 256, 1792])
    against the run of weights. -/
def runSum (cx : Vec Ideal S1x256x1792 .f32) (w : Vec Ideal S1792x1024 .bf16) (p : Fin 256) (j : Fin 1024) : EReal :=
  ∑ k : Fin 1792, cx (ix3 (0 : Fin 1) p k) * w (ix2 k j)

/-- The first product, into the cleared accumulator. -/
theorem first_at (cx : Vec Ideal S1x256x1792 .f32) (w : Vec Ideal S1792x1024 .bf16) (p : Fin 256) (j : Fin 1024) :
    k0_pay3 (F := Ideal) cx w (ix2 p j) = runSum cx w p j := by
  unfold k0_pay3 runSum
  rw [dot_run]
  refine Finset.sum_congr rfl fun k _ => ?_
  rw [truncf_apply, shapeCast_1ab_ab_apply, shapeCast_self]

/-- The cleared accumulator holds zero. -/
theorem cleared_at (p : Fin 256) (j : Fin 1024) : k0_pay2 (F := Ideal) (ix2 p j) = 0 := by
  unfold k0_pay2
  rw [shapeCast_self]
  exact Ideal.ofBits_zero_f32

/-- Adding a product already formed onto the accumulator. -/
theorem add_at (a : Vec Ideal S256x1024 .f32) (s : FVec Ideal S256x1024 .f32) (p : Fin 256) (j : Fin 1024) :
    k0_pay4 (F := Ideal) a s (ix2 p j) = a (ix2 p j) + s (ix2 p j) := by
  unfold k0_pay4
  rw [shapeCast_self]
  rfl

/-! ## A run multiplied in and added onto the accumulator -/

theorem step5_at (cx : Vec Ideal S1x256x1792 .f32) (w : Vec Ideal S1792x1024 .bf16) (a : Vec Ideal S256x1024 .f32)
    (p : Fin 256) (j : Fin 1024) :
    k0_pay5 (F := Ideal) cx w a (ix2 p j) = a (ix2 p j) + runSum cx w p j := by
  unfold k0_pay5 runSum
  rw [shapeCast_self, addf_apply, dot_run]
  refine congrArg (a (ix2 p j) + ·) (Finset.sum_congr rfl fun k _ => ?_)
  rw [truncf_apply, shapeCast_1ab_ab_apply, shapeCast_self]

theorem step6_at (cx : Vec Ideal S1x256x1792 .f32) (w : Vec Ideal S1792x1024 .bf16) (a : Vec Ideal S256x1024 .f32)
    (p : Fin 256) (j : Fin 1024) :
    k0_pay6 (F := Ideal) cx w a (ix2 p j) = a (ix2 p j) + runSum cx w p j := by
  unfold k0_pay6 runSum
  rw [shapeCast_self, addf_apply, dot_run]
  refine congrArg (a (ix2 p j) + ·) (Finset.sum_congr rfl fun k _ => ?_)
  rw [truncf_apply, shapeCast_1ab_ab_apply, shapeCast_self]

theorem step7_at (cx : Vec Ideal S1x256x1792 .f32) (w : Vec Ideal S1792x1024 .bf16) (a : Vec Ideal S256x1024 .f32)
    (p : Fin 256) (j : Fin 1024) :
    k0_pay7 (F := Ideal) cx w a (ix2 p j) = a (ix2 p j) + runSum cx w p j := by
  unfold k0_pay7 runSum
  rw [shapeCast_self, addf_apply, dot_run]
  refine congrArg (a (ix2 p j) + ·) (Finset.sum_congr rfl fun k _ => ?_)
  rw [truncf_apply, shapeCast_1ab_ab_apply, shapeCast_self]

theorem step10_at (cx : Vec Ideal S1x256x1792 .f32) (w : Vec Ideal S1792x1024 .bf16) (a : Vec Ideal S256x1024 .f32)
    (p : Fin 256) (j : Fin 1024) :
    k0_pay10 (F := Ideal) cx w a (ix2 p j) = a (ix2 p j) + runSum cx w p j := by
  unfold k0_pay10 runSum
  rw [shapeCast_self, addf_apply, dot_run]
  refine congrArg (a (ix2 p j) + ·) (Finset.sum_congr rfl fun k _ => ?_)
  rw [truncf_apply, shapeCast_1ab_ab_apply, shapeCast_self]

theorem step11_at (cx : Vec Ideal S1x256x1792 .f32) (w : Vec Ideal S1792x1024 .bf16) (a : Vec Ideal S256x1024 .f32)
    (p : Fin 256) (j : Fin 1024) :
    k0_pay11 (F := Ideal) cx w a (ix2 p j) = a (ix2 p j) + runSum cx w p j := by
  unfold k0_pay11 runSum
  rw [shapeCast_self, addf_apply, dot_run]
  refine congrArg (a (ix2 p j) + ·) (Finset.sum_congr rfl fun k _ => ?_)
  rw [truncf_apply, shapeCast_1ab_ab_apply, shapeCast_self]

/-- The same step where the sum is kept in hand before it is stored. -/
theorem step8_at (cx : Vec Ideal S1x256x1792 .f32) (w : Vec Ideal S1792x1024 .bf16) (a : Vec Ideal S256x1024 .f32)
    (p : Fin 256) (j : Fin 1024) :
    k0_pay8 (F := Ideal) cx w a (ix2 p j) = a (ix2 p j) + runSum cx w p j := by
  unfold k0_pay8 runSum
  rw [addf_apply, dot_run]
  refine congrArg (a (ix2 p j) + ·) (Finset.sum_congr rfl fun k _ => ?_)
  rw [truncf_apply, shapeCast_1ab_ab_apply, shapeCast_self]

theorem keep_at (s : FVec Ideal S256x1024 .f32) (p : Fin 256) (j : Fin 1024) :
    k0_pay9 (F := Ideal) s (ix2 p j) = s (ix2 p j) := by
  unfold k0_pay9
  rw [shapeCast_self]

/-! ## From the accumulator to the logits -/

/-- A bias of length n laid along the rows of a [256, n] block: entry (p, j) is its entry j. -/
theorem bias1024_at (b : Vec Ideal S1024 .f32) (h1 : S1024.ShapeCasts S1x1024) (h2 : S1x1024.Broadcasts S256x1024)
    (p : Fin 256) (j : Fin 1024) :
    broadcastTo S256x1024 (shapeCast S1x1024 b h1) h2 (ix2 p j) = b (ix1 j) := by
  rw [broadcastTo_1b_ab_apply, shapeCast_a_1a_apply]

theorem bias600_at (b : Vec Ideal S600 .f32) (h1 : S600.ShapeCasts S1x600) (h2 : S1x600.Broadcasts S256x600)
    (p : Fin 256) (q : Fin 600) :
    broadcastTo S256x600 (shapeCast S1x600 b h1) h2 (ix2 p q) = b (ix1 q) := by
  rw [broadcastTo_1b_ab_apply, shapeCast_a_1a_apply]

/-- The first hidden layer of row p, from the accumulator. -/
def hid1 (acc : Vec Ideal S256x1024 .f32) (b1 : Vec Ideal S1024 .f32) (p : Fin 256) (j : Fin 1024) : EReal :=
  max (acc (ix2 p j) + b1 (ix1 j)) 0

/-- The second hidden layer of row p. -/
def hid2 (acc : Vec Ideal S256x1024 .f32) (b1 : Vec Ideal S1024 .f32) (W2 : Vec Ideal S1024x1024 .bf16)
    (b2 : Vec Ideal S1024 .f32) (p : Fin 256) (j : Fin 1024) : EReal :=
  max ((∑ k : Fin 1024, hid1 acc b1 p k * W2 (ix2 k j)) + b2 (ix1 j)) 0

/-- The logit of entry (p, q). -/
def lgt (acc : Vec Ideal S256x1024 .f32) (b1 : Vec Ideal S1024 .f32) (W2 : Vec Ideal S1024x1024 .bf16)
    (b2 : Vec Ideal S1024 .f32) (W3 : Vec Ideal S1024x600 .bf16) (b3 : Vec Ideal S600 .f32) (p : Fin 256) (q : Fin 600) : EReal :=
  (∑ k : Fin 1024, hid2 acc b1 W2 b2 p k * W3 (ix2 k q)) + b3 (ix1 q)

theorem logits_at (acc : Vec Ideal S256x1024 .f32) (b1 : Vec Ideal S1024 .f32) (W2 : Vec Ideal S1024x1024 .bf16)
    (b2 : Vec Ideal S1024 .f32) (W3 : Vec Ideal S1024x600 .bf16) (b3 : Vec Ideal S600 .f32) (p : Fin 256) (q : Fin 600) :
    k0_pay12 (F := Ideal) acc b1 W2 b2 W3 b3 (ix2 p q) = lgt acc b1 W2 b2 W3 b3 p q := by
  unfold k0_pay12 lgt hid2 hid1
  simp only [addf_apply, dot_out, dot_mid, broadcastTo_1b_ab_apply, shapeCast_a_1a_apply, truncf_apply, maximumf_apply,
    broadcast_apply, shapeCast_self, Ideal.ofBits_def, Ideal.ofBits_zero_f32]

/-- The stored value: the prior times the logistic of the logit. -/
theorem out_at (z : FVec Ideal S256x600 .f32) (pr : Vec Ideal S256x600 .f32) (p : Fin 256) (q : Fin 600) :
    k0_pay1 (F := Ideal) z pr (ix2 p q) = pr (ix2 p q) * Ideal.logistic (z (ix2 p q)) := by
  unfold k0_pay1
  rw [shapeCast_self]
  rfl

/-! ## The whole composition -/

section Whole

variable (c0 c1 c2 c3 c4 c5 c6 : Vec Ideal S1x256x1792 .f32) (w0 w1 w2 w3 w4 w5 w6 : Vec Ideal S1792x1024 .bf16)

/-- The accumulator after the seven runs: cleared, the first product added, then six more multiplied in. -/
def accum : FVec Ideal S256x1024 .f32 :=
  k0_pay11 c6 w6 (k0_pay10 c5 w5 (k0_pay9 (k0_pay8 c4 w4 (k0_pay7 c3 w3 (k0_pay6 c2 w2 (k0_pay5 c1 w1
    (k0_pay4 k0_pay2 (k0_pay3 c0 w0))))))))

/-- At an entry it is the seven run sums added one after the other onto zero. -/
theorem accum_at (p : Fin 256) (j : Fin 1024) :
    accum c0 c1 c2 c3 c4 c5 c6 w0 w1 w2 w3 w4 w5 w6 (ix2 p j)
      = ((((((0 + runSum c0 w0 p j) + runSum c1 w1 p j) + runSum c2 w2 p j) + runSum c3 w3 p j)
          + runSum c4 w4 p j) + runSum c5 w5 p j) + runSum c6 w6 p j := by
  unfold accum
  rw [step11_at, step10_at, keep_at, step8_at, step7_at, step6_at, step5_at, add_at, cleared_at, first_at]

variable (b1 : Vec Ideal S1024 .f32) (W2 : Vec Ideal S1024x1024 .bf16) (b2 : Vec Ideal S1024 .f32)
  (W3 : Vec Ideal S1024x600 .bf16) (b3 : Vec Ideal S600 .f32) (pr : Vec Ideal S256x600 .f32)

/-- What the body stores to its output block. -/
def bodyOut : FVec Ideal S256x600 .f32 :=
  k0_pay1 (k0_pay12 (accum c0 c1 c2 c3 c4 c5 c6 w0 w1 w2 w3 w4 w5 w6) b1 W2 b2 W3 b3) pr

/-- At an entry: the prior times the logistic of the logit formed from the accumulator. -/
theorem body_at (p : Fin 256) (q : Fin 600) :
    bodyOut c0 c1 c2 c3 c4 c5 c6 w0 w1 w2 w3 w4 w5 w6 b1 W2 b2 W3 b3 pr (ix2 p q)
      = pr (ix2 p q) * Ideal.logistic (lgt (accum c0 c1 c2 c3 c4 c5 c6 w0 w1 w2 w3 w4 w5 w6) b1 W2 b2 W3 b3 p q) := by
  unfold bodyOut
  rw [out_at, logits_at]

end Whole

end Cert.KernelIdeal.BodyValue

end
-- ==== Proof.KernelPiece.lean ====
/-
  What the body leaves at an entry of its output block, as a function of what it was handed.

  The run's one piece of the output block is the body's composition of pure steps over its loads. Each load is read
  for what it is: the seven feature runs are the rows 256·t … of the features in place, columns 1792·c …, brought in
  by the body's own transfers (a slot filled whole and read back: the payload); the seven weight runs are rows
  1792·c … of the first weights; the accumulator's read-backs are what was last stored. The seven runs added one
  after the other onto zero are the one sum over all 12544 columns, so entry (p, q) is the classifier's value at row
  256·t + p.
-/
import proofs.«127507_j13185549599248_2_alg».proof.Proof.PatchedKernelIdealFrame
import proofs.«127507_j13185549599248_2_alg».proof.Proof.BodyValue
import proofs.«127507_j13185549599248_2_alg».proof.Proof.LibSlotRead
import proofs.«127507_j13185549599248_2_alg».proof.Proof.MlpSpec
import Idealize.ShloMosaic.Lib.Pipeline.Value
import Idealize.ShloMosaic.Lib.WholeRead
import Idealize.ShloMosaic.Lib.ValueLayout
import Idealize.ShloMosaic.Lib.Tactic

set_option maxRecDepth 16384

noncomputable section

namespace Cert.KernelIdeal.KPiece

open Cert.KernelIdeal Cert.KernelIdeal.Gen Cert.KernelIdeal.GenP Cert.KernelIdeal.BodyValue Cert.PairMlp
open Idealize.ShloMosaic Idealize.ShloMosaic.TcCoe Idealize.ShloMosaic.Tactic Idealize.SL.Sem Idealize.ShloMosaic.ValueIdx

theorem hz2 : (![0, 0] : Fin 2 → Nat) = fun _ => 0 := funext fun a => by fin_cases a <;> rfl
theorem hz1 : (![0] : Fin 1 → Nat) = fun _ => 0 := funext fun a => by fin_cases a; rfl

/-- Row p of the block of grid point i. -/
abbrev rowAt (i : grid0.Coords) (p : Fin 256) : Fin 4096 :=
  ⟨256 * (i 0).val + p.val, by have h : (i 0).val < 16 := (i 0).isLt; have := p.isLt; omega⟩

/-- A feature run as the body's transfer delivers it: entry (0, p, k) of run c is entry (256·t + p, 1792·c + k) of the
    features in place. -/
theorem feat_run (fh0 : S4096x12544.Idx → EReal) (i : grid0.Coords) (cN : Fin 7) (off : Fin 2 → Nat)
    (inb : ∀ a, off a + (![256, 1792] : Fin 2 → Nat) a ≤ S4096x12544.size a)
    (h0 : off 0 = 256 * (i 0).val) (h1 : off 1 = 1792 * cN.val)
    (hn : S256x1792.numel = S1x256x1792.numel) (p : Fin 256) (k : Fin 1792) :
    ReadAs.same.apply (View.read (Elt Ideal) ((View.whole main_v36).slice (Rect.unit (s := S4096x12544) off ![256, 1792] inb)) fh0)
        ((Shape.reshapeEquiv hn).symm (ix3 (0 : Fin 1) p k))
      = fh0 (ix2 (rowAt i p) (runIdx cN k)) := by
  rw [show (Shape.reshapeEquiv hn).symm (ix3 (0 : Fin 1) p k) = ix2 p k from
    (Equiv.symm_apply_eq _).mpr (reshapeEquiv_ix2_1ab hn p k).symm]
  show fh0 ((Rect.unit (s := S4096x12544) off ![256, 1792] inb).idx (ix2 p k)) = _
  refine congrArg fh0 (funext fun a => Fin.ext ?_)
  match a with
  | ⟨0, _⟩ => show off 0 + 1 * p.val = 256 * (i 0).val + p.val; rw [h0]; omega
  | ⟨1, _⟩ => show off 1 + 1 * k.val = 1792 * cN.val + k.val; rw [h1]; omega

/-- A weight run: entry (k, j) of run c is entry (1792·c + k, j) of the first weights. -/
theorem wt_run (x1 : Vec Ideal S12544x1024 .bf16) (cN : Fin 7) (off : Nat) (hoff : off = 1792 * cN.val)
    (inb : ∀ a, (![off, 0] : Fin 2 → Nat) a + (![1792, 1024] : Fin 2 → Nat) a ≤ S12544x1024.size a)
    (k : Fin 1792) (j : Fin 1024) :
    View.ld (Val := Elt Ideal) x1 (Rect.unit (s := S12544x1024) ![off, 0] ![1792, 1024] inb) (ix2 k j) = x1 (ix2 (runIdx cN k) j) := by
  show x1 ((Rect.unit (s := S12544x1024) ![off, 0] ![1792, 1024] inb).idx (ix2 k j)) = _
  refine congrArg x1 (funext fun a => Fin.ext ?_)
  match a with
  | ⟨0, _⟩ => show off + 1 * k.val = 1792 * cN.val + k.val; rw [hoff]; omega
  | ⟨1, _⟩ => show 0 + 1 * j.val = j.val; omega

/-- One run's sum, over the features in place and the first weights. -/
theorem runSum_eq (fh0 : S4096x12544.Idx → EReal) (x1 : S12544x1024.Idx → EReal) (i : grid0.Coords) (cN : Fin 7)
    (cx : Vec Ideal S1x256x1792 .f32) (w : Vec Ideal S1792x1024 .bf16)
    (hcx : ∀ (p : Fin 256) (k : Fin 1792), cx (ix3 (0 : Fin 1) p k) = fh0 (ix2 (rowAt i p) (runIdx cN k)))
    (hw : ∀ (k : Fin 1792) (j : Fin 1024), w (ix2 k j) = x1 (ix2 (runIdx cN k) j)) (p : Fin 256) (j : Fin 1024) :
    runSum cx w p j = ∑ k : Fin 1792, fh0 (ix2 (rowAt i p) (runIdx cN k)) * x1 (ix2 (runIdx cN k) j) := by
  unfold runSum
  exact Finset.sum_congr rfl fun k _ => by rw [hcx, hw]

/-- The hidden layers and the logit over an accumulator that holds the first layer's sums. -/
theorem lgt_eq (fh0 : S4096x12544.Idx → EReal) (x1 : S12544x1024.Idx → EReal) (x2 : S1024.Idx → EReal)
    (x3 : S1024x1024.Idx → EReal) (x4 : S1024.Idx → EReal) (x5 : S1024x600.Idx → EReal) (x6 : S600.Idx → EReal)
    (acc : Vec Ideal S256x1024 .f32) (r : Fin 4096) (p : Fin 256)
    (hacc : ∀ j : Fin 1024, acc (ix2 p j) = pre1 fh0 x1 r j) (q : Fin 600) :
    lgt acc x2 x3 x4 x5 x6 p q = logit fh0 x1 x2 x3 x4 x5 x6 r q := by
  unfold lgt hid2 hid1 logit h2 h1
  simp only [hacc]

set_option maxHeartbeats 3200000 in
/-- Entry (p, q) of what the body leaves in its output block. -/
theorem piece_at (c : Dev nD) (i : grid0.Coords) (arg2 : Memref sig .tc .vmem S256x600 .f32) (harg2 : arg2.IsWhole) (arg3 : Memref sig .tc .vmem S12544x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x600 .bf16) (harg7 : arg7.IsWhole) (arg8 : Memref sig .tc .vmem S600 .f32) (harg8 : arg8.IsWhole) (arg9 : Memref sig .tc .vmem S256x600 .f32) (harg9 : arg9.IsWhole) (arg10 : Memref sig .tc .vmem S2x256x1792 .f32) (harg10 : arg10.IsWhole) (arg12 : Memref sig .tc .vmem S256x1024 .f32) (harg12 : arg12.IsWhole)
    (x0 : Vec Ideal S256x600 .f32) (x1 : Vec Ideal S12544x1024 .bf16) (x2 : Vec Ideal S1024 .f32) (x3 : Vec Ideal S1024x1024 .bf16) (x4 : Vec Ideal S1024 .f32) (x5 : Vec Ideal S1024x600 .bf16) (x6 : Vec Ideal S600 .f32) (fh0 : S4096x12544.Idx → EReal) (p : Fin 256) (q : Fin 600) :
    out0_A_7 (F := Ideal) c i arg2 harg2 arg3 harg3 arg4 harg4 arg5 harg5 arg6 harg6 arg7 harg7 arg8 harg8 arg9 harg9 arg10 harg10 arg12 harg12 x0 x1 x2 x3 x4 x5 x6 fh0 (ix2 p q)
      = x0 (ix2 p q) * Ideal.logistic (logit fh0 x1 x2 x3 x4 x5 x6 (rowAt i p) q) := by
  unfold out0_A_7
  rw [View.read_writes_eq_canon _ _ _ (cover0_A_7 c i arg2 harg2 arg3 harg3 arg4 harg4 arg5 harg5 arg6 harg6 arg7 harg7 arg8 harg8 arg9 harg9 arg10 harg10 arg12 harg12 x0 x1 x2 x3 x4 x5 x6 fh0)]
  unfold kernelRun0_A
  dsimp only
  rw [View.canon_unit_zero hz2, out_at, harg2.readAt_unread x0]
  sl_unfold_run_names
  simp (disch := decide) only [Cert.LibSlotRead.readAt_reshaped_fill, Cert.LibSlotRead.readAt_other_fill]
  simp only [View.readCov_cons_toLoadRect, View.readAt_eq_ld, harg3.read_unread, harg4.read_unread,
    harg5.read_unread, harg6.read_unread, harg7.read_unread, harg8.read_unread,
    View.ld_unit_zero (S := S1024) hz1, View.ld_unit_zero (S := S1024x1024) hz2,
    View.ld_unit_zero (S := S1024x600) hz2, View.ld_unit_zero (S := S600) hz1]
  rw [logits_at, lgt_eq fh0 x1 x2 x3 x4 x5 x6 _ (rowAt i p) p ?hacc q]
  · refine congrArg (fun z => x0 z * _) (funext fun a => Fin.ext ?_)
    match a with
    | ⟨0, _⟩ => show 0 + 1 * p.val = p.val; omega
    | ⟨1, _⟩ => show 0 + 1 * q.val = q.val; omega
  case hacc =>
    intro j
    rw [step11_at, step10_at, keep_at, step8_at, step7_at, step6_at, step5_at, add_at, cleared_at, first_at]
    unfold pre1
    rw [← chain_runs (fun k => (fh0 (ix2 (rowAt i p) k) : EReal) * (x1 (ix2 k j) : EReal))]
    refine congrArg₂ (· + ·) (congrArg₂ (· + ·) (congrArg₂ (· + ·) (congrArg₂ (· + ·) (congrArg₂ (· + ·)
      (congrArg₂ (· + ·) (congrArg (0 + ·) ?r0) ?r1) ?r2) ?r3) ?r4) ?r5) ?r6
    case r0 =>
      refine runSum_eq fh0 x1 i 0 _ _ (fun p k => ?_) (fun k j => ?_) p j
      · exact feat_run fh0 i 0 (k0_off1 i) _ (by rw [k0_off1_eq]; rfl) (by rw [k0_off1_eq]; rfl) _ p k
      · exact wt_run x1 0 0 (by decide) _ k j
    case r1 =>
      refine runSum_eq fh0 x1 i 1 _ _ (fun p k => ?_) (fun k j => ?_) p j
      · exact feat_run fh0 i 1 (k0_off2 i) _ (by rw [k0_off2_eq]; rfl) (by rw [k0_off2_eq]; rfl) _ p k
      · exact wt_run x1 1 1792 (by decide) _ k j
    case r2 =>
      refine runSum_eq fh0 x1 i 2 _ _ (fun p k => ?_) (fun k j => ?_) p j
      · exact feat_run fh0 i 2 (k0_off3 i) _ (by rw [k0_off3_eq]; rfl) (by rw [k0_off3_eq]; rfl) _ p k
      · exact wt_run x1 2 3584 (by decide) _ k j
    case r3 =>
      refine runSum_eq fh0 x1 i 3 _ _ (fun p k => ?_) (fun k j => ?_) p j
      · exact feat_run fh0 i 3 (k0_off4 i) _ (by rw [k0_off4_eq]; rfl) (by rw [k0_off4_eq]; rfl) _ p k
      · exact wt_run x1 3 5376 (by decide) _ k j
    case r4 =>
      refine runSum_eq fh0 x1 i 4 _ _ (fun p k => ?_) (fun k j => ?_) p j
      · exact feat_run fh0 i 4 (k0_off5 i) _ (by rw [k0_off5_eq]; rfl) (by rw [k0_off5_eq]; rfl) _ p k
      · exact wt_run x1 4 7168 (by decide) _ k j
    case r5 =>
      refine runSum_eq fh0 x1 i 5 _ _ (fun p k => ?_) (fun k j => ?_) p j
      · exact feat_run fh0 i 5 (k0_off6 i) _ (by rw [k0_off6_eq]; rfl) (by rw [k0_off6_eq]; rfl) _ p k
      · exact wt_run x1 5 8960 (by decide) _ k j
    case r6 =>
      refine runSum_eq fh0 x1 i 6 _ _ (fun p k => ?_) (fun k j => ?_) p j
      · exact feat_run fh0 i 6 (k0_off7 i) _ (by rw [k0_off7_eq]; rfl) (by rw [k0_off7_eq]; rfl) _ p k
      · exact wt_run x1 6 10752 (by decide) _ k j

/-- The same at any index of the block. -/
theorem piece_idx (c : Dev nD) (i : grid0.Coords) (arg2 : Memref sig .tc .vmem S256x600 .f32) (harg2 : arg2.IsWhole) (arg3 : Memref sig .tc .vmem S12544x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1024x600 .bf16) (harg7 : arg7.IsWhole) (arg8 : Memref sig .tc .vmem S600 .f32) (harg8 : arg8.IsWhole) (arg9 : Memref sig .tc .vmem S256x600 .f32) (harg9 : arg9.IsWhole) (arg10 : Memref sig .tc .vmem S2x256x1792 .f32) (harg10 : arg10.IsWhole) (arg12 : Memref sig .tc .vmem S256x1024 .f32) (harg12 : arg12.IsWhole)
    (x0 : Vec Ideal S256x600 .f32) (x1 : Vec Ideal S12544x1024 .bf16) (x2 : Vec Ideal S1024 .f32) (x3 : Vec Ideal S1024x1024 .bf16) (x4 : Vec Ideal S1024 .f32) (x5 : Vec Ideal S1024x600 .bf16) (x6 : Vec Ideal S600 .f32) (fh0 : S4096x12544.Idx → EReal) (y : S256x600.Idx) :
    out0_A_7 (F := Ideal) c i arg2 harg2 arg3 harg3 arg4 harg4 arg5 harg5 arg6 harg6 arg7 harg7 arg8 harg8 arg9 harg9 arg10 harg10 arg12 harg12 x0 x1 x2 x3 x4 x5 x6 fh0 y
      = x0 y * Ideal.logistic (logit fh0 x1 x2 x3 x4 x5 x6 (rowAt i (y 0)) (y 1)) := by
  obtain ⟨p, q, rfl⟩ : ∃ (p : Fin 256) (q : Fin 600), y = ix2 p q := ⟨y 0, y 1, eq_ix2 y⟩
  exact piece_at c i arg2 harg2 arg3 harg3 arg4 harg4 arg5 harg5 arg6 harg6 arg7 harg7 arg8 harg8 arg9 harg9 arg10 harg10 arg12 harg12 x0 x1 x2 x3 x4 x5 x6 fh0 p q

end Cert.KernelIdeal.KPiece

end
-- ==== Proof.KernelValue.lean ====
/-
  From blocks to the array, and the kernel's run read.

  The grid has sixteen points; point t handles rows 256·t … 256·t + 255. Its output block and its block of prior scores
  sit at those rows; the three weight matrices and the three biases are handed whole at every point, and the features
  stay in place and are copied in by the body itself. The body leaves, at entry (p, q) of its output block, the
  classifier's value at row 256·t + p (the piece read at an entry, then the seven runs' chain as the one sum over 12544
  terms); the blocks are restrictions of one function of the arrays, and the sixteen of them cover the result array.
-/
import proofs.«127507_j13185549599248_2_alg».proof.Proof.PatchedKernelIdealFrame
import proofs.«127507_j13185549599248_2_alg».proof.Proof.KernelPiece
import proofs.«127507_j13185549599248_2_alg».proof.Proof.MlpSpec
import Idealize.ShloMosaic.Lib.Pipeline.Value

set_option maxRecDepth 16384

noncomputable section

namespace Cert.KernelIdeal.KValue

open Cert.KernelIdeal Cert.KernelIdeal.Gen Cert.KernelIdeal.GenP Cert.PairMlp
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result array as one function of the arrays the region finds. -/
def result (c : Dev nD) : S4096x600.Idx → EReal :=
  G (V m c main_v36) (V m c main_v37) (V m c main_arg6) (V m c main_v38) (V m c main_arg8) (V m c main_v39)
    (V m c main_arg10) (V m c main_v35)

/-- Where each window's block sits at point t, decided over the sixteen points: the output block and the prior's at
    row block t, the six parameter windows at the origin. -/
theorem idx_facts : ∀ t : Fin cfg0.N,
    (win0_7.index t (0 : Fin 2) = t.val ∧ win0_7.index t (1 : Fin 2) = 0)
    ∧ (win0_0.index t (0 : Fin 2) = t.val ∧ win0_0.index t (1 : Fin 2) = 0)
    ∧ (grid0.coords t 0).val = t.val
    ∧ t.val < 16
    ∧ (win0_1.index t (0 : Fin 2) = 0 ∧ win0_1.index t (1 : Fin 2) = 0)
    ∧ win0_2.index t (0 : Fin 1) = 0
    ∧ (win0_3.index t (0 : Fin 2) = 0 ∧ win0_3.index t (1 : Fin 2) = 0)
    ∧ win0_4.index t (0 : Fin 1) = 0
    ∧ (win0_5.index t (0 : Fin 2) = 0 ∧ win0_5.index t (1 : Fin 2) = 0)
    ∧ win0_6.index t (0 : Fin 1) = 0 :=
  (by decide +kernel : ∀ t : Fin grid0.N,
    (win0_7.index t (0 : Fin 2) = t.val ∧ win0_7.index t (1 : Fin 2) = 0)
    ∧ (win0_0.index t (0 : Fin 2) = t.val ∧ win0_0.index t (1 : Fin 2) = 0)
    ∧ (grid0.coords t 0).val = t.val
    ∧ t.val < 16
    ∧ (win0_1.index t (0 : Fin 2) = 0 ∧ win0_1.index t (1 : Fin 2) = 0)
    ∧ win0_2.index t (0 : Fin 1) = 0
    ∧ (win0_3.index t (0 : Fin 2) = 0 ∧ win0_3.index t (1 : Fin 2) = 0)
    ∧ win0_4.index t (0 : Fin 1) = 0
    ∧ (win0_5.index t (0 : Fin 2) = 0 ∧ win0_5.index t (1 : Fin 2) = 0)
    ∧ win0_6.index t (0 : Fin 1) = 0)

/-! ## The windows' blocks -/

theorem blk1 (c : Dev nD) (t : Fin cfg0.N) : (iblk m c 1 t : S12544x1024.Idx → EReal) = V m c main_v37 := by
  funext y
  show V m c main_v37 (((cfg0.win 1).blk t).view.emb y) = V m c main_v37 y
  refine congrArg _ (funext fun a => Fin.ext ?_)
  obtain ⟨⟨a7, b7⟩, ⟨a0, b0⟩, hc, ht, ⟨a1, b1⟩, a2, ⟨a3, b3⟩, a4, ⟨a5, b5⟩, a6⟩ := idx_facts t
  match a with
  | ⟨0, _⟩ => show win0_1.index t (0 : Fin 2) * 12544 + 1 * (y 0).val = (y 0).val; omega
  | ⟨1, _⟩ => show win0_1.index t (1 : Fin 2) * 1024 + 1 * (y 1).val = (y 1).val; omega

theorem blk2 (c : Dev nD) (t : Fin cfg0.N) : (iblk m c 2 t : S1024.Idx → EReal) = V m c main_arg6 := by
  funext y
  show V m c main_arg6 (((cfg0.win 2).blk t).view.emb y) = V m c main_arg6 y
  refine congrArg _ (funext fun a => Fin.ext ?_)
  obtain ⟨⟨a7, b7⟩, ⟨a0, b0⟩, hc, ht, ⟨a1, b1⟩, a2, ⟨a3, b3⟩, a4, ⟨a5, b5⟩, a6⟩ := idx_facts t
  match a with
  | ⟨0, _⟩ => show win0_2.index t (0 : Fin 1) * 1024 + 1 * (y 0).val = (y 0).val; omega

theorem blk3 (c : Dev nD) (t : Fin cfg0.N) : (iblk m c 3 t : S1024x1024.Idx → EReal) = V m c main_v38 := by
  funext y
  show V m c main_v38 (((cfg0.win 3).blk t).view.emb y) = V m c main_v38 y
  refine congrArg _ (funext fun a => Fin.ext ?_)
  obtain ⟨⟨a7, b7⟩, ⟨a0, b0⟩, hc, ht, ⟨a1, b1⟩, a2, ⟨a3, b3⟩, a4, ⟨a5, b5⟩, a6⟩ := idx_facts t
  match a with
  | ⟨0, _⟩ => show win0_3.index t (0 : Fin 2) * 1024 + 1 * (y 0).val = (y 0).val; omega
  | ⟨1, _⟩ => show win0_3.index t (1 : Fin 2) * 1024 + 1 * (y 1).val = (y 1).val; omega

theorem blk4 (c : Dev nD) (t : Fin cfg0.N) : (iblk m c 4 t : S1024.Idx → EReal) = V m c main_arg8 := by
  funext y
  show V m c main_arg8 (((cfg0.win 4).blk t).view.emb y) = V m c main_arg8 y
  refine congrArg _ (funext fun a => Fin.ext ?_)
  obtain ⟨⟨a7, b7⟩, ⟨a0, b0⟩, hc, ht, ⟨a1, b1⟩, a2, ⟨a3, b3⟩, a4, ⟨a5, b5⟩, a6⟩ := idx_facts t
  match a with
  | ⟨0, _⟩ => show win0_4.index t (0 : Fin 1) * 1024 + 1 * (y 0).val = (y 0).val; omega

theorem blk5 (c : Dev nD) (t : Fin cfg0.N) : (iblk m c 5 t : S1024x600.Idx → EReal) = V m c main_v39 := by
  funext y
  show V m c main_v39 (((cfg0.win 5).blk t).view.emb y) = V m c main_v39 y
  refine congrArg _ (funext fun a => Fin.ext ?_)
  obtain ⟨⟨a7, b7⟩, ⟨a0, b0⟩, hc, ht, ⟨a1, b1⟩, a2, ⟨a3, b3⟩, a4, ⟨a5, b5⟩, a6⟩ := idx_facts t
  match a with
  | ⟨0, _⟩ => show win0_5.index t (0 : Fin 2) * 1024 + 1 * (y 0).val = (y 0).val; omega
  | ⟨1, _⟩ => show win0_5.index t (1 : Fin 2) * 600 + 1 * (y 1).val = (y 1).val; omega

theorem blk6 (c : Dev nD) (t : Fin cfg0.N) : (iblk m c 6 t : S600.Idx → EReal) = V m c main_arg10 := by
  funext y
  show V m c main_arg10 (((cfg0.win 6).blk t).view.emb y) = V m c main_arg10 y
  refine congrArg _ (funext fun a => Fin.ext ?_)
  obtain ⟨⟨a7, b7⟩, ⟨a0, b0⟩, hc, ht, ⟨a1, b1⟩, a2, ⟨a3, b3⟩, a4, ⟨a5, b5⟩, a6⟩ := idx_facts t
  match a with
  | ⟨0, _⟩ => show win0_6.index t (0 : Fin 1) * 600 + 1 * (y 0).val = (y 0).val; omega

/-- Row p of point t's blocks is row 256·t + p of the arrays. -/
abbrev rowOf (t : Fin cfg0.N) (p : Fin 256) : Fin 4096 :=
  ⟨256 * t.val + p.val, by have := (idx_facts t).2.2.2.1; have := p.isLt; omega⟩

/-- The prior's block at point t. -/
theorem blk0 (c : Dev nD) (t : Fin cfg0.N) (y : S256x600.Idx) :
    (iblk m c 0 t : S256x600.Idx → EReal) y = V m c main_v35 (ix2 (rowOf t (y 0)) (y 1)) := by
  show V m c main_v35 (((cfg0.win 0).blk t).view.emb y) = V m c main_v35 (ix2 (rowOf t (y 0)) (y 1))
  refine congrArg _ (funext fun a => Fin.ext ?_)
  obtain ⟨⟨a7, b7⟩, ⟨a0, b0⟩, hc, ht, ⟨a1, b1⟩, a2, ⟨a3, b3⟩, a4, ⟨a5, b5⟩, a6⟩ := idx_facts t
  match a with
  | ⟨0, _⟩ => show win0_0.index t (0 : Fin 2) * 256 + 1 * (y 0).val = 256 * t.val + (y 0).val; omega
  | ⟨1, _⟩ => show win0_0.index t (1 : Fin 2) * 600 + 1 * (y 1).val = (y 1).val; omega

/-- Entry (p, q) of the output's block at point t is entry (256·t + p, q) of the result array. -/
theorem out_emb (t : Fin cfg0.N) (y : S256x600.Idx) :
    ((cfg0.win 7).blk t).view.emb y = ix2 (rowOf t (y 0)) (y 1) := by
  refine funext fun a => Fin.ext ?_
  obtain ⟨⟨a7, b7⟩, ⟨a0, b0⟩, hc, ht, ⟨a1, b1⟩, a2, ⟨a3, b3⟩, a4, ⟨a5, b5⟩, a6⟩ := idx_facts t
  match a with
  | ⟨0, _⟩ => show win0_7.index t (0 : Fin 2) * 256 + 1 * (y 0).val = 256 * t.val + (y 0).val; omega
  | ⟨1, _⟩ => show win0_7.index t (1 : Fin 2) * 600 + 1 * (y 1).val = (y 1).val; omega

/-! ## What each point writes back -/

/-- Point t writes back block t of the result function. -/
theorem written_eq (c : Dev nD) (t : Fin cfg0.N) :
    (dats m 0 c).flushed 7 t = ((cfg0.win 7).blk t).view.read (Elt Ideal) (result m c) := by
  show (cfg0.win 7).cut (grid0.coords t) ((dats m 0 c).after 7 t) = _
  rw [after0_7]
  unfold outsAt0
  funext y
  show out0_A_7 (F := Ideal) c (grid0.coords t) _ _ _ _ _ _ _ _ _ _ _ _ _ _ _ _ _ _ _ _ (iblk m c 0 t) (iblk m c 1 t)
      (iblk m c 2 t) (iblk m c 3 t) (iblk m c 4 t) (iblk m c 5 t) (iblk m c 6 t) (V m c main_v36) y
    = result m c (((cfg0.win 7).blk t).view.emb y)
  rw [KPiece.piece_idx, blk1, blk2, blk3, blk4, blk5, blk6, blk0, out_emb]
  obtain ⟨⟨a7, b7⟩, ⟨a0, b0⟩, hc, ht, ⟨a1, b1⟩, a2, ⟨a3, b3⟩, a4, ⟨a5, b5⟩, a6⟩ := idx_facts t
  have hr : KPiece.rowAt (grid0.coords t) (y 0) = rowOf t (y 0) :=
    Fin.ext (by show 256 * (grid0.coords t 0).val + (y 0).val = 256 * t.val + (y 0).val; rw [hc])
  unfold result G
  simp only [hr]
  rfl

/-! ## The sixteen blocks cover the array -/

theorem mem_out_blk (t : Fin cfg0.N) (i : S4096x600.Idx) :
    i ∈ ((cfg0.win 7).blk t).view.set ↔ ∀ a : Fin 2, win0_7.index t a * S256x600.size a ≤ (i a).val
      ∧ (i a).val < win0_7.index t a * S256x600.size a + S256x600.size a := by
  show i ∈ ((View.whole main_v40).slice (win0_7.rect t)).set ↔ _
  rw [View.set_slice_whole, Rect.mem_set_unit]
  exact Iff.rfl

/-- Row r lies in the block of point r / 256. -/
theorem covered (i : S4096x600.Idx) :
    ∃ t : Fin cfg0.N, (cfg0.win 7).flush t = true ∧ i ∈ ((cfg0.win 7).blk t).view.set := by
  have hi0 : (i 0).val < 4096 := (i 0).isLt
  have hi1 : (i 1).val < 600 := (i 1).isLt
  have hN : grid0.N = 16 := N_0
  let t : Fin cfg0.N := ⟨(i 0).val / 256, by show (i 0).val / 256 < grid0.N; rw [hN]; omega⟩
  refine ⟨t, flush0_7 t, ?_⟩
  rw [mem_out_blk]
  obtain ⟨⟨a7, b7⟩, ⟨a0, b0⟩, hc, ht, ⟨a1, b1⟩, a2, ⟨a3, b3⟩, a4, ⟨a5, b5⟩, a6⟩ := idx_facts t
  have htv : t.val = (i 0).val / 256 := rfl
  intro a
  match a with
  | ⟨0, _⟩ =>
    show win0_7.index t (0 : Fin 2) * 256 ≤ (i 0).val ∧ (i 0).val < win0_7.index t (0 : Fin 2) * 256 + 256
    rw [a7, htv]; omega
  | ⟨1, _⟩ =>
    show win0_7.index t (1 : Fin 2) * 600 ≤ (i 1).val ∧ (i 1).val < win0_7.index t (1 : Fin 2) * 600 + 600
    rw [b7]; omega

/-- The result array after the run. -/
theorem final (c : Dev nD) : (dats m 0 c).arrAt 7 cfg0.N = result m c :=
  (dats m 0 c).arrAt_eq_of_cover 7 (result m c) (fun t _ => written_eq m c t) covered

/-! ## The run, read -/

/-- Every weakly fair execution of the kernel's program ends with the result array at the classifier's function of the
    arrays the region finds, and the arguments as launched. -/
theorem run : θ_run defs (onTc (τ := τ) (main (F := Ideal))) ⟨m, fun _ => 0, ρ⟩ fun r => ∀ c : Dev nD,
      r.2.mem ((c : Thread nD τ).loc main_v40) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨((h c).1 7).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 2).trans (((dats m 0 c).arrAt_in 2 rfl _).trans ((A_eq m c 2).trans (V_main_arg6 m c))),
      ((h c).2 main_arg7 (Pipeline.mem_restRefs_of main_arg7 (by decide) (by decide))).trans (V_main_arg7 m c),
      ((h c).1 4).trans (((dats m 0 c).arrAt_in 4 rfl _).trans ((A_eq m c 4).trans (V_main_arg8 m c))),
      ((h c).2 main_arg9 (Pipeline.mem_restRefs_of main_arg9 (by decide) (by decide))).trans (V_main_arg9 m c),
      ((h c).1 6).trans (((dats m 0 c).arrAt_in 6 rfl _).trans ((A_eq m c 6).trans (V_main_arg10 m c)))⟩)
    (run_main m ρ)

end Cert.KernelIdeal.KValue

end
-- ==== Proof.lean ====
/-
  The pair classifier's kernel against its reference, over the extended reals.

  Both programs compute, for each of 4096 box pairs, prior · logistic(W3ᵀ·relu(W2ᵀ·relu(W1ᵀ·x + b1) + b2) + b3): the
  reference with three whole matrix products on the host; the kernel sixteen rows-of-256 at a time, its first product
  accumulated over seven runs of 1792 feature columns that the body copies in itself, its weights rounded to a shorter
  float format on the way in. On the extended reals a change of float format is the identity, a matrix product is a
  plain sum, and the seven runs added one after the other onto zero are the one sum over 12544 columns (commutativity
  and associativity of addition only: no finiteness of the inputs is used). The prior scores are the same chain of
  look-ups and products in both programs and are never opened. The logistic the kernel applies is, by definition,
  the quotient 1 / (1 + e^(-z)) the reference spells out.

  The three programs run, fault-free, with their arguments unchanged (the two kernel frames from the run of the body
  at every grid point; the reference's from its straight-line run); the idealization rewrote nothing.
-/
import proofs.«127507_j13185549599248_2_alg».proof.Defs
import proofs.«127507_j13185549599248_2_alg».proof.Proof.Gen.Kernel
import proofs.«127507_j13185549599248_2_alg».proof.Proof.Gen.KernelIdeal
import proofs.«127507_j13185549599248_2_alg».proof.Proof.Gen.ReferenceIdeal
import proofs.«127507_j13185549599248_2_alg».proof.Proof.Gen.Pre_finite_inputs
import proofs.«127507_j13185549599248_2_alg».proof.Proof.PatchedKernelFrame
import proofs.«127507_j13185549599248_2_alg».proof.Proof.PatchedKernelIdealFrame
import proofs.«127507_j13185549599248_2_alg».proof.Proof.Gen.ReferenceIdeal.Run
import proofs.«127507_j13185549599248_2_alg».proof.Proof.Gen.ReferenceIdeal.Read
import proofs.«127507_j13185549599248_2_alg».proof.Proof.HostSide
import proofs.«127507_j13185549599248_2_alg».proof.Proof.RefValue
import proofs.«127507_j13185549599248_2_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both runs end with the classifier's function of those arguments. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v57_eq, Cert.ReferenceIdeal.RefValue.result_eq,
    a0, a1, a2, a3, a4, a5, a6, a7, a8, a9, a10]
  show _ = Cert.KernelIdeal.KValue.result m c
  unfold Cert.KernelIdeal.KValue.result
  rw [Cert.KernelIdeal.HostSide.prior_eq, Cert.KernelIdeal.HostSide.feats_eq, Cert.KernelIdeal.HostSide.w1_eq,
    Cert.KernelIdeal.HostSide.w2_eq, Cert.KernelIdeal.HostSide.w3_eq, Cert.KernelIdeal.Gen.V_main_arg6,
    Cert.KernelIdeal.Gen.V_main_arg8, Cert.KernelIdeal.Gen.V_main_arg10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
